-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel

variable [Facts]

def fn {F : FTy → Type} [FloatOps F] (main_arg0 : FVec F S8x4096x128 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  main_v3
-- ==== Kernel.lean ====
abbrev S8x4096x128 : Shape := ⟨3, ![8, 4096, 128]⟩
abbrev S8x16x4096x128 : Shape := ⟨4, ![8, 16, 4096, 128]⟩
abbrev S1x4096x128 : Shape := ⟨3, ![1, 4096, 128]⟩
abbrev S1x8x4096x128 : Shape := ⟨4, ![1, 8, 4096, 128]⟩
abbrev S4096x128 : Shape := ⟨2, ![4096, 128]⟩
abbrev S128 : Shape := ⟨1, ![128]⟩
abbrev S1x128 : Shape := ⟨2, ![1, 128]⟩
abbrev S1x1x4096x128 : Shape := ⟨4, ![1, 1, 4096, 128]⟩

abbrev nBuf : Space → Nat
  | .hbm => 2
  | .vmem => 6
  | .smem => 0
  | _ => 0

abbrev bufTy : (tb : Table) → Fin (tcTables nBuf tb) → BufTy
  | .hbm, ⟨0, _⟩ => ⟨S8x4096x128, .f32⟩
  | .hbm, ⟨1, _⟩ => ⟨S8x16x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S1x8x4096x128, .f32⟩
  | .local _ .vmem, ⟨3, _⟩ => ⟨S1x8x4096x128, .f32⟩
  | .local _ .vmem, ⟨4, _⟩ => ⟨S4096x128, .f32⟩
  | .local _ .vmem, ⟨5, _⟩ => ⟨S4096x128, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c8_i32 : BitVec 32 := 8#32
  let v4 : BitVec 32 := Scalar.muli arg1 c8_i32
  let c0_i32_1 : BitVec 32 := 0#32
  let v5 : BitVec 32 := Scalar.addi v4 c0_i32_1
  let c3_i32 : BitVec 32 := 3#32
  let c0_i32_2 : BitVec 32 := 0#32
  let v6 : BitVec 1 := Scalar.cmpi .eq c3_i32 c0_i32_2
  let c1_i32 : BitVec 32 := 1#32
  let v7 : BitVec 32 := Scalar.select v6 c1_i32 c3_i32
  let v8 : BitVec 32 := Scalar.remsi v5 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 32 := Scalar.extui v16
  let c0_i32_7 : BitVec 32 := 0#32
  let v18 : BitVec 1 := Scalar.cmpi .ne v17 c0_i32_7
  v18

def k0_cond3 (i : grid0.Coords) : BitVec 1 :=
  let arg1 : BitVec 32 := BitVec.ofNat 32 (i 1).val
  let c8_i32 : BitVec 32 := 8#32
  let v4 : BitVec 32 := Scalar.muli arg1 c8_i32
  let c0_i32_1 : BitVec 32 := 0#32
  let v5 : BitVec 32 := Scalar.addi v4 c0_i32_1
  let c3_i32 : BitVec 32 := 3#32
  let c0_i32_2 : BitVec 32 := 0#32
  let v6 : BitVec 1 := Scalar.cmpi .eq c3_i32 c0_i32_2
  let c1_i32 : BitVec 32 := 1#32
  let v7 : BitVec 32 := Scalar.select v6 c1_i32 c3_i32
  let v8 : BitVec 32 := Scalar.remsi v5 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c1_i32_8 : BitVec 32 := 1#32
  let v19 : BitVec 1 := Scalar.cmpi .eq v15 c1_i32_8
  let v20 : BitVec 32 := Scalar.extui v19
  let c0_i32_9 : BitVec 32 := 0#32
  let v21 : BitVec 1 := Scalar.cmpi .ne v20 c0_i32_9
  v21

def k0_cond4 (i : grid0.Coords) : BitVec 1 :=
  let arg1 : BitVec 32 := BitVec.ofNat 32 (i 1).val
  let c8_i32 : BitVec 32 := 8#32
  let v4 : BitVec 32 := Scalar.muli arg1 c8_i32
  let c0_i32_1 : BitVec 32 := 0#32
  let v5 : BitVec 32 := Scalar.addi v4 c0_i32_1
  let c3_i32 : BitVec 32 := 3#32
  let c0_i32_2 : BitVec 32 := 0#32
  let v6 : BitVec 1 := Scalar.cmpi .eq c3_i32 c0_i32_2
  let c1_i32 : BitVec 32 := 1#32
  let v7 : BitVec 32 := Scalar.select v6 c1_i32 c3_i32
  let v8 : BitVec 32 := Scalar.remsi v5 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_10 : BitVec 32 := 0#32
  let v22 : BitVec 1 := Scalar.cmpi .ne v15 c0_i32_10
  let c1_i32_11 : BitVec 32 := 1#32
  let v23 : BitVec 1 := Scalar.cmpi .ne v15 c1_i32_11
  let v24 : BitVec 1 := Scalar.andi v22 v23
  let v25 : BitVec 32 := Scalar.extui v24
  let c0_i32_12 : BitVec 32 := 0#32
  let v26 : BitVec 1 := Scalar.cmpi .ne v25 c0_i32_12
  v26

def k0_cond5 (i : grid0.Coords) : BitVec 1 :=
  let arg1 : BitVec 32 := BitVec.ofNat 32 (i 1).val
  let c8_i32_13 : BitVec 32 := 8#32
  let v27 : BitVec 32 := Scalar.muli arg1 c8_i32_13
  let c1_i32_14 : BitVec 32 := 1#32
  let v28 : BitVec 32 := Scalar.addi v27 c1_i32_14
  let c3_i32_15 : BitVec 32 := 3#32
  let c0_i32_16 : BitVec 32 := 0#32
  let v29 : BitVec 1 := Scalar.cmpi .eq c3_i32_15 c0_i32_16
  let c1_i32_17 : BitVec 32 := 1#32
  let v30 : BitVec 32 := Scalar.select v29 c1_i32_17 c3_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c0_i32_21 : BitVec 32 := 0#32
  let v39 : BitVec 1 := Scalar.cmpi .eq v38 c0_i32_21
  let v40 : BitVec 32 := Scalar.extui v39
  let c0_i32_22 : BitVec 32 := 0#32
  let v41 : BitVec 1 := Scalar.cmpi .ne v40 c0_i32_22
  v41

def k0_cond6 (i : grid0.Coords) : BitVec 1 :=
  let arg1 : BitVec 32 := BitVec.ofNat 32 (i 1).val
  let c8_i32_13 : BitVec 32 := 8#32
  let v27 : BitVec 32 := Scalar.muli arg1 c8_i32_13
  let c1_i32_14 : BitVec 32 := 1#32
  let v28 : BitVec 32 := Scalar.addi v27 c1_i32_14
  let c3_i32_15 : BitVec 32 := 3#32
  let c0_i32_16 : BitVec 32 := 0#32
  let v29 : BitVec 1 := Scalar.cmpi .eq c3_i32_15 c0_i32_16
  let c1_i32_17 : BitVec 32 := 1#32
  let v30 : BitVec 32 := Scalar.select v29 c1_i32_17 c3_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c1_i32_23 : BitVec 32 := 1#32
  let v42 : BitVec 1 := Scalar.cmpi .eq v38 c1_i32_23
  let v43 : BitVec 32 := Scalar.extui v42
  let c0_i32_24 : BitVec 32 := 0#32
  let v44 : BitVec 1 := Scalar.cmpi .ne v43 c0_i32_24
  v44

def k0_cond7 (i : grid0.Coords) : BitVec 1 :=
  let arg1 : BitVec 32 := BitVec.ofNat 32 (i 1).val
  let c8_i32_13 : BitVec 32 := 8#32
  let v27 : BitVec 32 := Scalar.muli arg1 c8_i32_13
  let c1_i32_14 : BitVec 32 := 1#32
  let v28 : BitVec 32 := Scalar.addi v27 c1_i32_14
  let c3_i32_15 : BitVec 32 := 3#32
  let c0_i32_16 : BitVec 32 := 0#32
  let v29 : BitVec 1 := Scalar.cmpi .eq c3_i32_15 c0_i32_16
  let c1_i32_17 : BitVec 32 := 1#32
  let v30 : BitVec 32 := Scalar.select v29 c1_i32_17 c3_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c0_i32_25 : BitVec 32 := 0#32
  let v45 : BitVec 1 := Scalar.cmpi .ne v38 c0_i32_25
  let c1_i32_26 : BitVec 32 := 1#32
  let v46 : BitVec 1 := Scalar.cmpi .ne v38 c1_i32_26
  let v47 : BitVec 1 := Scalar.andi v45 v46
  let v48 : BitVec 32 := Scalar.extui v47
  let c0_i32_27 : BitVec 32 := 0#32
  let v49 : BitVec 1 := Scalar.cmpi .ne v48 c0_i32_27
  v49

def k0_cond8 (i : grid0.Coords) : BitVec 1 :=
  let arg1 : BitVec 32 := BitVec.ofNat 32 (i 1).val
  let c8_i32_28 : BitVec 32 := 8#32
  let v50 : BitVec 32 := Scalar.muli arg1 c8_i32_28
  let c2_i32 : BitVec 32 := 2#32
  let v51 : BitVec 32 := Scalar.addi v50 c2_i32
  let c3_i32_29 : BitVec 32 := 3#32
  let c0_i32_30 : BitVec 32 := 0#32
  let v52 : BitVec 1 := Scalar.cmpi .eq c3_i32_29 c0_i32_30
  let c1_i32_31 : BitVec 32 := 1#32
  let v53 : BitVec 32 := Scalar.select v52 c1_i32_31 c3_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c0_i32_35 : BitVec 32 := 0#32
  let v62 : BitVec 1 := Scalar.cmpi .eq v61 c0_i32_35
  let v63 : BitVec 32 := Scalar.extui v62
  let c0_i32_36 : BitVec 32 := 0#32
  let v64 : BitVec 1 := Scalar.cmpi .ne v63 c0_i32_36
  v64

def k0_cond9 (i : grid0.Coords) : BitVec 1 :=
  let arg1 : BitVec 32 := BitVec.ofNat 32 (i 1).val
  let c8_i32_28 : BitVec 32 := 8#32
  let v50 : BitVec 32 := Scalar.muli arg1 c8_i32_28
  let c2_i32 : BitVec 32 := 2#32
  let v51 : BitVec 32 := Scalar.addi v50 c2_i32
  let c3_i32_29 : BitVec 32 := 3#32
  let c0_i32_30 : BitVec 32 := 0#32
  let v52 : BitVec 1 := Scalar.cmpi .eq c3_i32_29 c0_i32_30
  let c1_i32_31 : BitVec 32 := 1#32
  let v53 : BitVec 32 := Scalar.select v52 c1_i32_31 c3_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c1_i32_37 : BitVec 32 := 1#32
  let v65 : BitVec 1 := Scalar.cmpi .eq v61 c1_i32_37
  let v66 : BitVec 32 := Scalar.extui v65
  let c0_i32_38 : BitVec 32 := 0#32
  let v67 : BitVec 1 := Scalar.cmpi .ne v66 c0_i32_38
  v67

def k0_cond10 (i : grid0.Coords) : BitVec 1 :=
  let arg1 : BitVec 32 := BitVec.ofNat 32 (i 1).val
  let c8_i32_28 : BitVec 32 := 8#32
  let v50 : BitVec 32 := Scalar.muli arg1 c8_i32_28
  let c2_i32 : BitVec 32 := 2#32
  let v51 : BitVec 32 := Scalar.addi v50 c2_i32
  let c3_i32_29 : BitVec 32 := 3#32
  let c0_i32_30 : BitVec 32 := 0#32
  let v52 : BitVec 1 := Scalar.cmpi .eq c3_i32_29 c0_i32_30
  let c1_i32_31 : BitVec 32 := 1#32
  let v53 : BitVec 32 := Scalar.select v52 c1_i32_31 c3_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c0_i32_39 : BitVec 32 := 0#32
  let v68 : BitVec 1 := Scalar.cmpi .ne v61 c0_i32_39
  let c1_i32_40 : BitVec 32 := 1#32
  let v69 : BitVec 1 := Scalar.cmpi .ne v61 c1_i32_40
  let v70 : BitVec 1 := Scalar.andi v68 v69
  let v71 : BitVec 32 := Scalar.extui v70
  let c0_i32_41 : BitVec 32 := 0#32
  let v72 : BitVec 1 := Scalar.cmpi .ne v71 c0_i32_41
  v72

def k0_cond11 (i : grid0.Coords) : BitVec 1 :=
  let arg1 : BitVec 32 := BitVec.ofNat 32 (i 1).val
  let c8_i32_42 : BitVec 32 := 8#32
  let v73 : BitVec 32 := Scalar.muli arg1 c8_i32_42
  let c3_i32_43 : BitVec 32 := 3#32
  let v74 : BitVec 32 := Scalar.addi v73 c3_i32_43
  let c3_i32_44 : BitVec 32 := 3#32
  let c0_i32_45 : BitVec 32 := 0#32
  let v75 : BitVec 1 := Scalar.cmpi .eq c3_i32_44 c0_i32_45
  let c1_i32_46 : BitVec 32 := 1#32
  let v76 : BitVec 32 := Scalar.select v75 c1_i32_46 c3_i32_44
  let v77 : BitVec 32 := Scalar.remsi v74 v76
  let c0_i32_48 : BitVec 32 := 0#32
  let v79 : BitVec 1 := Scalar.cmpi .slt v77 c0_i32_48
  let c0_i32_49 : BitVec 32 := 0#32
  let v80 : BitVec 1 := Scalar.cmpi .slt v76 c0_i32_49
  let v81 : BitVec 1 := Scalar.xori v79 v80
  let c0_i32_47 : BitVec 32 := 0#32
  let v78 : BitVec 1 := Scalar.cmpi .ne v77 c0_i32_47
  let v82 : BitVec 1 := Scalar.andi v81 v78
  let v83 : BitVec 32 := Scalar.addi v77 v76
  let v84 : BitVec 32 := Scalar.select v82 v83 v77
  let c0_i32_50 : BitVec 32 := 0#32
  let v85 : BitVec 1 := Scalar.cmpi .eq v84 c0_i32_50
  let v86 : BitVec 32 := Scalar.extui v85
  let c0_i32_51 : BitVec 32 := 0#32
  let v87 : BitVec 1 := Scalar.cmpi .ne v86 c0_i32_51
  v87

def k0_cond12 (i : grid0.Coords) : BitVec 1 :=
  let arg1 : BitVec 32 := BitVec.ofNat 32 (i 1).val
  let c8_i32_42 : BitVec 32 := 8#32
  let v73 : BitVec 32 := Scalar.muli arg1 c8_i32_42
  let c3_i32_43 : BitVec 32 := 3#32
  let v74 : BitVec 32 := Scalar.addi v73 c3_i32_43
  let c3_i32_44 : BitVec 32 := 3#32
  let c0_i32_45 : BitVec 32 := 0#32
  let v75 : BitVec 1 := Scalar.cmpi .eq c3_i32_44 c0_i32_45
  let c1_i32_46 : BitVec 32 := 1#32
  let v76 : BitVec 32 := Scalar.select v75 c1_i32_46 c3_i32_44
  let v77 : BitVec 32 := Scalar.remsi v74 v76
  let c0_i32_48 : BitVec 32 := 0#32
  let v79 : BitVec 1 := Scalar.cmpi .slt v77 c0_i32_48
  let c0_i32_49 : BitVec 32 := 0#32
  let v80 : BitVec 1 := Scalar.cmpi .slt v76 c0_i32_49
  let v81 : BitVec 1 := Scalar.xori v79 v80
  let c0_i32_47 : BitVec 32 := 0#32
  let v78 : BitVec 1 := Scalar.cmpi .ne v77 c0_i32_47
  let v82 : BitVec 1 := Scalar.andi v81 v78
  let v83 : BitVec 32 := Scalar.addi v77 v76
  let v84 : BitVec 32 := Scalar.select v82 v83 v77
  let c1_i32_52 : BitVec 32 := 1#32
  let v88 : BitVec 1 := Scalar.cmpi .eq v84 c1_i32_52
  let v89 : BitVec 32 := Scalar.extui v88
  let c0_i32_53 : BitVec 32 := 0#32
  let v90 : BitVec 1 := Scalar.cmpi .ne v89 c0_i32_53
  v90

def k0_cond13 (i : grid0.Coords) : BitVec 1 :=
  let arg1 : BitVec 32 := BitVec.ofNat 32 (i 1).val
  let c8_i32_42 : BitVec 32 := 8#32
  let v73 : BitVec 32 := Scalar.muli arg1 c8_i32_42
  let c3_i32_43 : BitVec 32 := 3#32
  let v74 : BitVec 32 := Scalar.addi v73 c3_i32_43
  let c3_i32_44 : BitVec 32 := 3#32
  let c0_i32_45 : BitVec 32 := 0#32
  let v75 : BitVec 1 := Scalar.cmpi .eq c3_i32_44 c0_i32_45
  let c1_i32_46 : BitVec 32 := 1#32
  let v76 : BitVec 32 := Scalar.select v75 c1_i32_46 c3_i32_44
  let v77 : BitVec 32 := Scalar.remsi v74 v76
  let c0_i32_48 : BitVec 32 := 0#32
  let v79 : BitVec 1 := Scalar.cmpi .slt v77 c0_i32_48
  let c0_i32_49 : BitVec 32 := 0#32
  let v80 : BitVec 1 := Scalar.cmpi .slt v76 c0_i32_49
  let v81 : BitVec 1 := Scalar.xori v79 v80
  let c0_i32_47 : BitVec 32 := 0#32
  let v78 : BitVec 1 := Scalar.cmpi .ne v77 c0_i32_47
  let v82 : BitVec 1 := Scalar.andi v81 v78
  let v83 : BitVec 32 := Scalar.addi v77 v76
  let v84 : BitVec 32 := Scalar.select v82 v83 v77
  let c0_i32_54 : BitVec 32 := 0#32
  let v91 : BitVec 1 := Scalar.cmpi .ne v84 c0_i32_54
  let c1_i32_55 : BitVec 32 := 1#32
  let v92 : BitVec 1 := Scalar.cmpi .ne v84 c1_i32_55
  let v93 : BitVec 1 := Scalar.andi v91 v92
  let v94 : BitVec 32 := Scalar.extui v93
  let c0_i32_56 : BitVec 32 := 0#32
  let v95 : BitVec 1 := Scalar.cmpi .ne v94 c0_i32_56
  v95

def k0_cond14 (i : grid0.Coords) : BitVec 1 :=
  let arg1 : BitVec 32 := BitVec.ofNat 32 (i 1).val
  let c8_i32_57 : BitVec 32 := 8#32
  let v96 : BitVec 32 := Scalar.muli arg1 c8_i32_57
  let c4_i32 : BitVec 32 := 4#32
  let v97 : BitVec 32 := Scalar.addi v96 c4_i32
  let c3_i32_58 : BitVec 32 := 3#32
  let c0_i32_59 : BitVec 32 := 0#32
  let v98 : BitVec 1 := Scalar.cmpi .eq c3_i32_58 c0_i32_59
  let c1_i32_60 : BitVec 32 := 1#32
  let v99 : BitVec 32 := Scalar.select v98 c1_i32_60 c3_i32_58
  let v100 : BitVec 32 := Scalar.remsi v97 v99
  let c0_i32_62 : BitVec 32 := 0#32
  let v102 : BitVec 1 := Scalar.cmpi .slt v100 c0_i32_62
  let c0_i32_63 : BitVec 32 := 0#32
  let v103 : BitVec 1 := Scalar.cmpi .slt v99 c0_i32_63
  let v104 : BitVec 1 := Scalar.xori v102 v103
  let c0_i32_61 : BitVec 32 := 0#32
  let v101 : BitVec 1 := Scalar.cmpi .ne v100 c0_i32_61
  let v105 : BitVec 1 := Scalar.andi v104 v101
  let v106 : BitVec 32 := Scalar.addi v100 v99
  let v107 : BitVec 32 := Scalar.select v105 v106 v100
  let c0_i32_64 : BitVec 32 := 0#32
  let v108 : BitVec 1 := Scalar.cmpi .eq v107 c0_i32_64
  let v109 : BitVec 32 := Scalar.extui v108
  let c0_i32_65 : BitVec 32 := 0#32
  let v110 : BitVec 1 := Scalar.cmpi .ne v109 c0_i32_65
  v110

def k0_cond15 (i : grid0.Coords) : BitVec 1 :=
  let arg1 : BitVec 32 := BitVec.ofNat 32 (i 1).val
  let c8_i32_57 : BitVec 32 := 8#32
  let v96 : BitVec 32 := Scalar.muli arg1 c8_i32_57
  let c4_i32 : BitVec 32 := 4#32
  let v97 : BitVec 32 := Scalar.addi v96 c4_i32
  let c3_i32_58 : BitVec 32 := 3#32
  let c0_i32_59 : BitVec 32 := 0#32
  let v98 : BitVec 1 := Scalar.cmpi .eq c3_i32_58 c0_i32_59
  let c1_i32_60 : BitVec 32 := 1#32
  let v99 : BitVec 32 := Scalar.select v98 c1_i32_60 c3_i32_58
  let v100 : BitVec 32 := Scalar.remsi v97 v99
  let c0_i32_62 : BitVec 32 := 0#32
  let v102 : BitVec 1 := Scalar.cmpi .slt v100 c0_i32_62
  let c0_i32_63 : BitVec 32 := 0#32
  let v103 : BitVec 1 := Scalar.cmpi .slt v99 c0_i32_63
  let v104 : BitVec 1 := Scalar.xori v102 v103
  let c0_i32_61 : BitVec 32 := 0#32
  let v101 : BitVec 1 := Scalar.cmpi .ne v100 c0_i32_61
  let v105 : BitVec 1 := Scalar.andi v104 v101
  let v106 : BitVec 32 := Scalar.addi v100 v99
  let v107 : BitVec 32 := Scalar.select v105 v106 v100
  let c1_i32_66 : BitVec 32 := 1#32
  let v111 : BitVec 1 := Scalar.cmpi .eq v107 c1_i32_66
  let v112 : BitVec 32 := Scalar.extui v111
  let c0_i32_67 : BitVec 32 := 0#32
  let v113 : BitVec 1 := Scalar.cmpi .ne v112 c0_i32_67
  v113

def k0_cond16 (i : grid0.Coords) : BitVec 1 :=
  let arg1 : BitVec 32 := BitVec.ofNat 32 (i 1).val
  let c8_i32_57 : BitVec 32 := 8#32
  let v96 : BitVec 32 := Scalar.muli arg1 c8_i32_57
  let c4_i32 : BitVec 32 := 4#32
  let v97 : BitVec 32 := Scalar.addi v96 c4_i32
  let c3_i32_58 : BitVec 32 := 3#32
  let c0_i32_59 : BitVec 32 := 0#32
  let v98 : BitVec 1 := Scalar.cmpi .eq c3_i32_58 c0_i32_59
  let c1_i32_60 : BitVec 32 := 1#32
  let v99 : BitVec 32 := Scalar.select v98 c1_i32_60 c3_i32_58
  let v100 : BitVec 32 := Scalar.remsi v97 v99
  let c0_i32_62 : BitVec 32 := 0#32
  let v102 : BitVec 1 := Scalar.cmpi .slt v100 c0_i32_62
  let c0_i32_63 : BitVec 32 := 0#32
  let v103 : BitVec 1 := Scalar.cmpi .slt v99 c0_i32_63
  let v104 : BitVec 1 := Scalar.xori v102 v103
  let c0_i32_61 : BitVec 32 := 0#32
  let v101 : BitVec 1 := Scalar.cmpi .ne v100 c0_i32_61
  let v105 : BitVec 1 := Scalar.andi v104 v101
  let v106 : BitVec 32 := Scalar.addi v100 v99
  let v107 : BitVec 32 := Scalar.select v105 v106 v100
  let c0_i32_68 : BitVec 32 := 0#32
  let v114 : BitVec 1 := Scalar.cmpi .ne v107 c0_i32_68
  let c1_i32_69 : BitVec 32 := 1#32
  let v115 : BitVec 1 := Scalar.cmpi .ne v107 c1_i32_69
  let v116 : BitVec 1 := Scalar.andi v114 v115
  let v117 : BitVec 32 := Scalar.extui v116
  let c0_i32_70 : BitVec 32 := 0#32
  let v118 : BitVec 1 := Scalar.cmpi .ne v117 c0_i32_70
  v118

def k0_cond17 (i : grid0.Coords) : BitVec 1 :=
  let arg1 : BitVec 32 := BitVec.ofNat 32 (i 1).val
  let c8_i32_71 : BitVec 32 := 8#32
  let v119 : BitVec 32 := Scalar.muli arg1 c8_i32_71
  let c5_i32 : BitVec 32 := 5#32
  let v120 : BitVec 32 := Scalar.addi v119 c5_i32
  let c3_i32_72 : BitVec 32 := 3#32
  let c0_i32_73 : BitVec 32 := 0#32
  let v121 : BitVec 1 := Scalar.cmpi .eq c3_i32_72 c0_i32_73
  let c1_i32_74 : BitVec 32 := 1#32
  let v122 : BitVec 32 := Scalar.select v121 c1_i32_74 c3_i32_72
  let v123 : BitVec 32 := Scalar.remsi v120 v122
  let c0_i32_76 : BitVec 32 := 0#32
  let v125 : BitVec 1 := Scalar.cmpi .slt v123 c0_i32_76
  let c0_i32_77 : BitVec 32 := 0#32
  let v126 : BitVec 1 := Scalar.cmpi .slt v122 c0_i32_77
  let v127 : BitVec 1 := Scalar.xori v125 v126
  let c0_i32_75 : BitVec 32 := 0#32
  let v124 : BitVec 1 := Scalar.cmpi .ne v123 c0_i32_75
  let v128 : BitVec 1 := Scalar.andi v127 v124
  let v129 : BitVec 32 := Scalar.addi v123 v122
  let v130 : BitVec 32 := Scalar.select v128 v129 v123
  let c0_i32_78 : BitVec 32 := 0#32
  let v131 : BitVec 1 := Scalar.cmpi .eq v130 c0_i32_78
  let v132 : BitVec 32 := Scalar.extui v131
  let c0_i32_79 : BitVec 32 := 0#32
  let v133 : BitVec 1 := Scalar.cmpi .ne v132 c0_i32_79
  v133

def k0_cond18 (i : grid0.Coords) : BitVec 1 :=
  let arg1 : BitVec 32 := BitVec.ofNat 32 (i 1).val
  let c8_i32_71 : BitVec 32 := 8#32
  let v119 : BitVec 32 := Scalar.muli arg1 c8_i32_71
  let c5_i32 : BitVec 32 := 5#32
  let v120 : BitVec 32 := Scalar.addi v119 c5_i32
  let c3_i32_72 : BitVec 32 := 3#32
  let c0_i32_73 : BitVec 32 := 0#32
  let v121 : BitVec 1 := Scalar.cmpi .eq c3_i32_72 c0_i32_73
  let c1_i32_74 : BitVec 32 := 1#32
  let v122 : BitVec 32 := Scalar.select v121 c1_i32_74 c3_i32_72
  let v123 : BitVec 32 := Scalar.remsi v120 v122
  let c0_i32_76 : BitVec 32 := 0#32
  let v125 : BitVec 1 := Scalar.cmpi .slt v123 c0_i32_76
  let c0_i32_77 : BitVec 32 := 0#32
  let v126 : BitVec 1 := Scalar.cmpi .slt v122 c0_i32_77
  let v127 : BitVec 1 := Scalar.xori v125 v126
  let c0_i32_75 : BitVec 32 := 0#32
  let v124 : BitVec 1 := Scalar.cmpi .ne v123 c0_i32_75
  let v128 : BitVec 1 := Scalar.andi v127 v124
  let v129 : BitVec 32 := Scalar.addi v123 v122
  let v130 : BitVec 32 := Scalar.select v128 v129 v123
  let c1_i32_80 : BitVec 32 := 1#32
  let v134 : BitVec 1 := Scalar.cmpi .eq v130 c1_i32_80
  let v135 : BitVec 32 := Scalar.extui v134
  let c0_i32_81 : BitVec 32 := 0#32
  let v136 : BitVec 1 := Scalar.cmpi .ne v135 c0_i32_81
  v136

def k0_cond19 (i : grid0.Coords) : BitVec 1 :=
  let arg1 : BitVec 32 := BitVec.ofNat 32 (i 1).val
  let c8_i32_71 : BitVec 32 := 8#32
  let v119 : BitVec 32 := Scalar.muli arg1 c8_i32_71
  let c5_i32 : BitVec 32 := 5#32
  let v120 : BitVec 32 := Scalar.addi v119 c5_i32
  let c3_i32_72 : BitVec 32 := 3#32
  let c0_i32_73 : BitVec 32 := 0#32
  let v121 : BitVec 1 := Scalar.cmpi .eq c3_i32_72 c0_i32_73
  let c1_i32_74 : BitVec 32 := 1#32
  let v122 : BitVec 32 := Scalar.select v121 c1_i32_74 c3_i32_72
  let v123 : BitVec 32 := Scalar.remsi v120 v122
  let c0_i32_76 : BitVec 32 := 0#32
  let v125 : BitVec 1 := Scalar.cmpi .slt v123 c0_i32_76
  let c0_i32_77 : BitVec 32 := 0#32
  let v126 : BitVec 1 := Scalar.cmpi .slt v122 c0_i32_77
  let v127 : BitVec 1 := Scalar.xori v125 v126
  let c0_i32_75 : BitVec 32 := 0#32
  let v124 : BitVec 1 := Scalar.cmpi .ne v123 c0_i32_75
  let v128 : BitVec 1 := Scalar.andi v127 v124
  let v129 : BitVec 32 := Scalar.addi v123 v122
  let v130 : BitVec 32 := Scalar.select v128 v129 v123
  let c0_i32_82 : BitVec 32 := 0#32
  let v137 : BitVec 1 := Scalar.cmpi .ne v130 c0_i32_82
  let c1_i32_83 : BitVec 32 := 1#32
  let v138 : BitVec 1 := Scalar.cmpi .ne v130 c1_i32_83
  let v139 : BitVec 1 := Scalar.andi v137 v138
  let v140 : BitVec 32 := Scalar.extui v139
  let c0_i32_84 : BitVec 32 := 0#32
  let v141 : BitVec 1 := Scalar.cmpi .ne v140 c0_i32_84
  v141

def k0_cond20 (i : grid0.Coords) : BitVec 1 :=
  let arg1 : BitVec 32 := BitVec.ofNat 32 (i 1).val
  let c8_i32_85 : BitVec 32 := 8#32
  let v142 : BitVec 32 := Scalar.muli arg1 c8_i32_85
  let c6_i32 : BitVec 32 := 6#32
  let v143 : BitVec 32 := Scalar.addi v142 c6_i32
  let c3_i32_86 : BitVec 32 := 3#32
  let c0_i32_87 : BitVec 32 := 0#32
  let v144 : BitVec 1 := Scalar.cmpi .eq c3_i32_86 c0_i32_87
  let c1_i32_88 : BitVec 32 := 1#32
  let v145 : BitVec 32 := Scalar.select v144 c1_i32_88 c3_i32_86
  let v146 : BitVec 32 := Scalar.remsi v143 v145
  let c0_i32_90 : BitVec 32 := 0#32
  let v148 : BitVec 1 := Scalar.cmpi .slt v146 c0_i32_90
  let c0_i32_91 : BitVec 32 := 0#32
  let v149 : BitVec 1 := Scalar.cmpi .slt v145 c0_i32_91
  let v150 : BitVec 1 := Scalar.xori v148 v149
  let c0_i32_89 : BitVec 32 := 0#32
  let v147 : BitVec 1 := Scalar.cmpi .ne v146 c0_i32_89
  let v151 : BitVec 1 := Scalar.andi v150 v147
  let v152 : BitVec 32 := Scalar.addi v146 v145
  let v153 : BitVec 32 := Scalar.select v151 v152 v146
  let c0_i32_92 : BitVec 32 := 0#32
  let v154 : BitVec 1 := Scalar.cmpi .eq v153 c0_i32_92
  let v155 : BitVec 32 := Scalar.extui v154
  let c0_i32_93 : BitVec 32 := 0#32
  let v156 : BitVec 1 := Scalar.cmpi .ne v155 c0_i32_93
  v156

def k0_cond21 (i : grid0.Coords) : BitVec 1 :=
  let arg1 : BitVec 32 := BitVec.ofNat 32 (i 1).val
  let c8_i32_85 : BitVec 32 := 8#32
  let v142 : BitVec 32 := Scalar.muli arg1 c8_i32_85
  let c6_i32 : BitVec 32 := 6#32
  let v143 : BitVec 32 := Scalar.addi v142 c6_i32
  let c3_i32_86 : BitVec 32 := 3#32
  let c0_i32_87 : BitVec 32 := 0#32
  let v144 : BitVec 1 := Scalar.cmpi .eq c3_i32_86 c0_i32_87
  let c1_i32_88 : BitVec 32 := 1#32
  let v145 : BitVec 32 := Scalar.select v144 c1_i32_88 c3_i32_86
  let v146 : BitVec 32 := Scalar.remsi v143 v145
  let c0_i32_90 : BitVec 32 := 0#32
  let v148 : BitVec 1 := Scalar.cmpi .slt v146 c0_i32_90
  let c0_i32_91 : BitVec 32 := 0#32
  let v149 : BitVec 1 := Scalar.cmpi .slt v145 c0_i32_91
  let v150 : BitVec 1 := Scalar.xori v148 v149
  let c0_i32_89 : BitVec 32 := 0#32
  let v147 : BitVec 1 := Scalar.cmpi .ne v146 c0_i32_89
  let v151 : BitVec 1 := Scalar.andi v150 v147
  let v152 : BitVec 32 := Scalar.addi v146 v145
  let v153 : BitVec 32 := Scalar.select v151 v152 v146
  let c1_i32_94 : BitVec 32 := 1#32
  let v157 : BitVec 1 := Scalar.cmpi .eq v153 c1_i32_94
  let v158 : BitVec 32 := Scalar.extui v157
  let c0_i32_95 : BitVec 32 := 0#32
  let v159 : BitVec 1 := Scalar.cmpi .ne v158 c0_i32_95
  v159

def k0_cond22 (i : grid0.Coords) : BitVec 1 :=
  let arg1 : BitVec 32 := BitVec.ofNat 32 (i 1).val
  let c8_i32_85 : BitVec 32 := 8#32
  let v142 : BitVec 32 := Scalar.muli arg1 c8_i32_85
  let c6_i32 : BitVec 32 := 6#32
  let v143 : BitVec 32 := Scalar.addi v142 c6_i32
  let c3_i32_86 : BitVec 32 := 3#32
  let c0_i32_87 : BitVec 32 := 0#32
  let v144 : BitVec 1 := Scalar.cmpi .eq c3_i32_86 c0_i32_87
  let c1_i32_88 : BitVec 32 := 1#32
  let v145 : BitVec 32 := Scalar.select v144 c1_i32_88 c3_i32_86
  let v146 : BitVec 32 := Scalar.remsi v143 v145
  let c0_i32_90 : BitVec 32 := 0#32
  let v148 : BitVec 1 := Scalar.cmpi .slt v146 c0_i32_90
  let c0_i32_91 : BitVec 32 := 0#32
  let v149 : BitVec 1 := Scalar.cmpi .slt v145 c0_i32_91
  let v150 : BitVec 1 := Scalar.xori v148 v149
  let c0_i32_89 : BitVec 32 := 0#32
  let v147 : BitVec 1 := Scalar.cmpi .ne v146 c0_i32_89
  let v151 : BitVec 1 := Scalar.andi v150 v147
  let v152 : BitVec 32 := Scalar.addi v146 v145
  let v153 : BitVec 32 := Scalar.select v151 v152 v146
  let c0_i32_96 : BitVec 32 := 0#32
  let v160 : BitVec 1 := Scalar.cmpi .ne v153 c0_i32_96
  let c1_i32_97 : BitVec 32 := 1#32
  let v161 : BitVec 1 := Scalar.cmpi .ne v153 c1_i32_97
  let v162 : BitVec 1 := Scalar.andi v160 v161
  let v163 : BitVec 32 := Scalar.extui v162
  let c0_i32_98 : BitVec 32 := 0#32
  let v164 : BitVec 1 := Scalar.cmpi .ne v163 c0_i32_98
  v164

def k0_cond23 (i : grid0.Coords) : BitVec 1 :=
  let arg1 : BitVec 32 := BitVec.ofNat 32 (i 1).val
  let c8_i32_99 : BitVec 32 := 8#32
  let v165 : BitVec 32 := Scalar.muli arg1 c8_i32_99
  let c7_i32 : BitVec 32 := 7#32
  let v166 : BitVec 32 := Scalar.addi v165 c7_i32
  let c3_i32_100 : BitVec 32 := 3#32
  let c0_i32_101 : BitVec 32 := 0#32
  let v167 : BitVec 1 := Scalar.cmpi .eq c3_i32_100 c0_i32_101
  let c1_i32_102 : BitVec 32 := 1#32
  let v168 : BitVec 32 := Scalar.select v167 c1_i32_102 c3_i32_100
  let v169 : BitVec 32 := Scalar.remsi v166 v168
  let c0_i32_104 : BitVec 32 := 0#32
  let v171 : BitVec 1 := Scalar.cmpi .slt v169 c0_i32_104
  let c0_i32_105 : BitVec 32 := 0#32
  let v172 : BitVec 1 := Scalar.cmpi .slt v168 c0_i32_105
  let v173 : BitVec 1 := Scalar.xori v171 v172
  let c0_i32_103 : BitVec 32 := 0#32
  let v170 : BitVec 1 := Scalar.cmpi .ne v169 c0_i32_103
  let v174 : BitVec 1 := Scalar.andi v173 v170
  let v175 : BitVec 32 := Scalar.addi v169 v168
  let v176 : BitVec 32 := Scalar.select v174 v175 v169
  let c0_i32_106 : BitVec 32 := 0#32
  let v177 : BitVec 1 := Scalar.cmpi .eq v176 c0_i32_106
  let v178 : BitVec 32 := Scalar.extui v177
  let c0_i32_107 : BitVec 32 := 0#32
  let v179 : BitVec 1 := Scalar.cmpi .ne v178 c0_i32_107
  v179

def k0_cond24 (i : grid0.Coords) : BitVec 1 :=
  let arg1 : BitVec 32 := BitVec.ofNat 32 (i 1).val
  let c8_i32_99 : BitVec 32 := 8#32
  let v165 : BitVec 32 := Scalar.muli arg1 c8_i32_99
  let c7_i32 : BitVec 32 := 7#32
  let v166 : BitVec 32 := Scalar.addi v165 c7_i32
  let c3_i32_100 : BitVec 32 := 3#32
  let c0_i32_101 : BitVec 32 := 0#32
  let v167 : BitVec 1 := Scalar.cmpi .eq c3_i32_100 c0_i32_101
  let c1_i32_102 : BitVec 32 := 1#32
  let v168 : BitVec 32 := Scalar.select v167 c1_i32_102 c3_i32_100
  let v169 : BitVec 32 := Scalar.remsi v166 v168
  let c0_i32_104 : BitVec 32 := 0#32
  let v171 : BitVec 1 := Scalar.cmpi .slt v169 c0_i32_104
  let c0_i32_105 : BitVec 32 := 0#32
  let v172 : BitVec 1 := Scalar.cmpi .slt v168 c0_i32_105
  let v173 : BitVec 1 := Scalar.xori v171 v172
  let c0_i32_103 : BitVec 32 := 0#32
  let v170 : BitVec 1 := Scalar.cmpi .ne v169 c0_i32_103
  let v174 : BitVec 1 := Scalar.andi v173 v170
  let v175 : BitVec 32 := Scalar.addi v169 v168
  let v176 : BitVec 32 := Scalar.select v174 v175 v169
  let c1_i32_108 : BitVec 32 := 1#32
  let v180 : BitVec 1 := Scalar.cmpi .eq v176 c1_i32_108
  let v181 : BitVec 32 := Scalar.extui v180
  let c0_i32_109 : BitVec 32 := 0#32
  let v182 : BitVec 1 := Scalar.cmpi .ne v181 c0_i32_109
  v182

def k0_cond25 (i : grid0.Coords) : BitVec 1 :=
  let arg1 : BitVec 32 := BitVec.ofNat 32 (i 1).val
  let c8_i32_99 : BitVec 32 := 8#32
  let v165 : BitVec 32 := Scalar.muli arg1 c8_i32_99
  let c7_i32 : BitVec 32 := 7#32
  let v166 : BitVec 32 := Scalar.addi v165 c7_i32
  let c3_i32_100 : BitVec 32 := 3#32
  let c0_i32_101 : BitVec 32 := 0#32
  let v167 : BitVec 1 := Scalar.cmpi .eq c3_i32_100 c0_i32_101
  let c1_i32_102 : BitVec 32 := 1#32
  let v168 : BitVec 32 := Scalar.select v167 c1_i32_102 c3_i32_100
  let v169 : BitVec 32 := Scalar.remsi v166 v168
  let c0_i32_104 : BitVec 32 := 0#32
  let v171 : BitVec 1 := Scalar.cmpi .slt v169 c0_i32_104
  let c0_i32_105 : BitVec 32 := 0#32
  let v172 : BitVec 1 := Scalar.cmpi .slt v168 c0_i32_105
  let v173 : BitVec 1 := Scalar.xori v171 v172
  let c0_i32_103 : BitVec 32 := 0#32
  let v170 : BitVec 1 := Scalar.cmpi .ne v169 c0_i32_103
  let v174 : BitVec 1 := Scalar.andi v173 v170
  let v175 : BitVec 32 := Scalar.addi v169 v168
  let v176 : BitVec 32 := Scalar.select v174 v175 v169
  let c0_i32_110 : BitVec 32 := 0#32
  let v183 : BitVec 1 := Scalar.cmpi .ne v176 c0_i32_110
  let c1_i32_111 : BitVec 32 := 1#32
  let v184 : BitVec 1 := Scalar.cmpi .ne v176 c1_i32_111
  let v185 : BitVec 1 := Scalar.andi v183 v184
  let v186 : BitVec 32 := Scalar.extui v185
  let c0_i32_112 : BitVec 32 := 0#32
  let v187 : BitVec 1 := Scalar.cmpi .ne v186 c0_i32_112
  v187

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  rotates_S4096x128_d0 : S4096x128.Rotates 0 none
  iota_S4096x128_d0_w32 : S4096x128.Iotas .tc 32 [0]
  reduces_S4096x128_S128 : S4096x128.Reduces [0] S128
  shapeCasts_S128_S1x128 : S128.ShapeCasts S1x128
  broadcasts_S1x128_S4096x128 : S1x128.Broadcasts S4096x128
  natLt_1_32 : 1 < 32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x8x4096x128_S1x1x4096x128_0_0_0_0 : ∀ a, (![0, 0, 0, 0] : Fin 4 → Nat) a + S1x1x4096x128.size a ≤ S1x8x4096x128.size a
  h_S1x1x4096x128 : 0 < S1x1x4096x128.numel
  shapeCasts_S1x1x4096x128_S4096x128 : S1x1x4096x128.ShapeCasts S4096x128
  shapeCasts_S4096x128_S1x1x4096x128 : S4096x128.ShapeCasts S1x1x4096x128
  inb_S1x8x4096x128_S1x1x4096x128_0_1_0_0 : ∀ a, (![0, 1, 0, 0] : Fin 4 → Nat) a + S1x1x4096x128.size a ≤ S1x8x4096x128.size a
  inb_S1x8x4096x128_S1x1x4096x128_0_2_0_0 : ∀ a, (![0, 2, 0, 0] : Fin 4 → Nat) a + S1x1x4096x128.size a ≤ S1x8x4096x128.size a
  inb_S1x8x4096x128_S1x1x4096x128_0_3_0_0 : ∀ a, (![0, 3, 0, 0] : Fin 4 → Nat) a + S1x1x4096x128.size a ≤ S1x8x4096x128.size a
  inb_S1x8x4096x128_S1x1x4096x128_0_4_0_0 : ∀ a, (![0, 4, 0, 0] : Fin 4 → Nat) a + S1x1x4096x128.size a ≤ S1x8x4096x128.size a
  inb_S1x8x4096x128_S1x1x4096x128_0_5_0_0 : ∀ a, (![0, 5, 0, 0] : Fin 4 → Nat) a + S1x1x4096x128.size a ≤ S1x8x4096x128.size a
  inb_S1x8x4096x128_S1x1x4096x128_0_6_0_0 : ∀ a, (![0, 6, 0, 0] : Fin 4 → Nat) a + S1x1x4096x128.size a ≤ S1x8x4096x128.size a
  inb_S1x8x4096x128_S1x1x4096x128_0_7_0_0 : ∀ a, (![0, 7, 0, 0] : Fin 4 → Nat) a + S1x1x4096x128.size a ≤ S1x8x4096x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S8x4096x128.size a
  hwx0_0 : ∀ i : grid0.Coords, EltTy.bits .f32 = 32 ∨ (Rect.block (s := S8x4096x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x4096x128.size a ≤ S8x16x4096x128.size a
  hwx0_1 : ∀ i : grid0.Coords, EltTy.bits .f32 = 32 ∨ (Rect.block (s := S8x16x4096x128) S1x8x4096x128.size (cc0_transform_1 i) (hinb0_1 i)).WholeWords (EltTy.packing .f32)

variable [Facts₀]

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x4096x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) && !(k0_cond3 i == 1#1) && !(k0_cond4 i == 1#1) && !(k0_cond5 i == 1#1) && !(k0_cond6 i == 1#1) && !(k0_cond7 i == 1#1) && !(k0_cond8 i == 1#1) && !(k0_cond9 i == 1#1) && !(k0_cond10 i == 1#1) && !(k0_cond11 i == 1#1) && !(k0_cond12 i == 1#1) && !(k0_cond13 i == 1#1) && !(k0_cond14 i == 1#1) && !(k0_cond15 i == 1#1) && !(k0_cond16 i == 1#1) && !(k0_cond17 i == 1#1) && !(k0_cond18 i == 1#1) && !(k0_cond19 i == 1#1) && !(k0_cond20 i == 1#1) && !(k0_cond21 i == 1#1) && !(k0_cond22 i == 1#1) && !(k0_cond23 i == 1#1) && !(k0_cond24 i == 1#1) && !(k0_cond25 i == 1#1) | ⟨_ + 2, h⟩ => absurd h (Nat.not_lt.2 (Nat.le_add_left _ _))

class Facts : Prop extends Facts₀ where

variable [Facts]
-- ==== ReferenceIdeal.lean ====
abbrev S8x4096x128 : Shape := ⟨3, ![8, 4096, 128]⟩
abbrev S8x1x128 : Shape := ⟨3, ![8, 1, 128]⟩
abbrev S8x4097x128 : Shape := ⟨3, ![8, 4097, 128]⟩
abbrev S_ : Shape := ⟨0, ![]⟩
abbrev S8x128 : Shape := ⟨2, ![8, 128]⟩
abbrev S16 : Shape := ⟨1, ![16]⟩
abbrev S1x16x1x1 : Shape := ⟨4, ![1, 16, 1, 1]⟩
abbrev S8x1x4096x128 : Shape := ⟨4, ![8, 1, 4096, 128]⟩
abbrev S8x16x4096x128 : Shape := ⟨4, ![8, 16, 4096, 128]⟩

abbrev nBuf : Space → Nat
  | .hbm => 86
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x1x128, .f32⟩
  | .hbm, ⟨2, _⟩ => ⟨S8x4097x128, .f32⟩
  | .hbm, ⟨3, _⟩ => ⟨S8x4096x128, .f32⟩
  | .hbm, ⟨4, _⟩ => ⟨S8x4096x128, .f32⟩
  | .hbm, ⟨5, _⟩ => ⟨S8x4096x128, .f32⟩
  | .hbm, ⟨6, _⟩ => ⟨S_, .i32⟩
  | .hbm, ⟨7, _⟩ => ⟨S_, .f32⟩
  | .hbm, ⟨8, _⟩ => ⟨S8x128, .f32⟩
  | .hbm, ⟨9, _⟩ => ⟨S8x1x128, .f32⟩
  | .hbm, ⟨10, _⟩ => ⟨S_, .f32⟩
  | .hbm, ⟨11, _⟩ => ⟨S8x1x128, .f32⟩
  | .hbm, ⟨12, _⟩ => ⟨S8x1x128, .f32⟩
  | .hbm, ⟨13, _⟩ => ⟨S8x4096x128, .f32⟩
  | .hbm, ⟨14, _⟩ => ⟨S8x4096x128, .f32⟩
  | .hbm, ⟨15, _⟩ => ⟨S8x4096x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8x128, .f32⟩
  | .hbm, ⟨21, _⟩ => ⟨S8x1x128, .f32⟩
  | .hbm, ⟨22, _⟩ => ⟨S8x1x128, .f32⟩
  | .hbm, ⟨23, _⟩ => ⟨S8x1x128, .f32⟩
  | .hbm, ⟨24, _⟩ => ⟨S_, .f32⟩
  | .hbm, ⟨25, _⟩ => ⟨S_, .i1⟩
  | .hbm, ⟨26, _⟩ => ⟨S_, .f32⟩
  | .hbm, ⟨27, _⟩ => ⟨S_, .f32⟩
  | .hbm, ⟨28, _⟩ => ⟨S8x1x128, .f32⟩
  | .hbm, ⟨29, _⟩ => ⟨S8x1x128, .f32⟩
  | .hbm, ⟨30, _⟩ => ⟨S8x1x128, .f32⟩
  | .hbm, ⟨31, _⟩ => ⟨S_, .f32⟩
  | .hbm, ⟨32, _⟩ => ⟨S8x1x128, .f32⟩
  | .hbm, ⟨33, _⟩ => ⟨S8x1x128, .f32⟩
  | .hbm, ⟨34, _⟩ => ⟨S8x4096x128, .f32⟩
  | .hbm, ⟨35, _⟩ => ⟨S8x4096x128, .f32⟩
  | .hbm, ⟨36, _⟩ => ⟨S_, .f32⟩
  | .hbm, ⟨37, _⟩ => ⟨S8x4096x128, .f32⟩
  | .hbm, ⟨38, _⟩ => ⟨S8x4096x128, .i1⟩
  | .hbm, ⟨39, _⟩ => ⟨S8x4096x128, .f32⟩
  | .hbm, ⟨40, _⟩ => ⟨S8x4096x128, .f32⟩
  | .hbm, ⟨41, _⟩ => ⟨S_, .f32⟩
  | .hbm, ⟨42, _⟩ => ⟨S8x4096x128, .f32⟩
  | .hbm, ⟨43, _⟩ => ⟨S8x4096x128, .i1⟩
  | .hbm, ⟨44, _⟩ => ⟨S8x4096x128, .f32⟩
  | .hbm, ⟨45, _⟩ => ⟨S16, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S16, .i32⟩
  | .hbm, ⟨53, _⟩ => ⟨S16, .i32⟩
  | .hbm, ⟨54, _⟩ => ⟨S_, .i32⟩
  | .hbm, ⟨55, _⟩ => ⟨S16, .i32⟩
  | .hbm, ⟨56, _⟩ => ⟨S16, .i1⟩
  | .hbm, ⟨57, _⟩ => ⟨S_, .i32⟩
  | .hbm, ⟨58, _⟩ => ⟨S16, .i32⟩
  | .hbm, ⟨59, _⟩ => ⟨S16, .i1⟩
  | .hbm, ⟨60, _⟩ => ⟨S_, .i32⟩
  | .hbm, ⟨61, _⟩ => ⟨S_, .i1⟩
  | .hbm, ⟨62, _⟩ => ⟨S16, .i1⟩
  | .hbm, ⟨63, _⟩ => ⟨S16, .i1⟩
  | .hbm, ⟨64, _⟩ => ⟨S16, .i1⟩
  | .hbm, ⟨65, _⟩ => ⟨S16, .i32⟩
  | .hbm, ⟨66, _⟩ => ⟨S16, .i32⟩
  | .hbm, ⟨67, _⟩ => ⟨S16, .i32⟩
  | .hbm, ⟨68, _⟩ => ⟨S1x16x1x1, .i32⟩
  | .hbm, ⟨69, _⟩ => ⟨S_, .i32⟩
  | .hbm, ⟨70, _⟩ => ⟨S1x16x1x1, .i32⟩
  | .hbm, ⟨71, _⟩ => ⟨S1x16x1x1, .i1⟩
  | .hbm, ⟨72, _⟩ => ⟨S8x1x4096x128, .f32⟩
  | .hbm, ⟨73, _⟩ => ⟨S_, .i32⟩
  | .hbm, ⟨74, _⟩ => ⟨S1x16x1x1, .i32⟩
  | .hbm, ⟨75, _⟩ => ⟨S1x16x1x1, .i1⟩
  | .hbm, ⟨76, _⟩ => ⟨S8x1x4096x128, .f32⟩
  | .hbm, ⟨77, _⟩ => ⟨S_, .f32⟩
  | .hbm, ⟨78, _⟩ => ⟨S_, .f32⟩
  | .hbm, ⟨79, _⟩ => ⟨S8x16x4096x128, .i1⟩
  | .hbm, ⟨80, _⟩ => ⟨S8x16x4096x128, .f32⟩
  | .hbm, ⟨81, _⟩ => ⟨S8x16x4096x128, .f32⟩
  | .hbm, ⟨82, _⟩ => ⟨S8x16x4096x128, .f32⟩
  | .hbm, ⟨83, _⟩ => ⟨S8x16x4096x128, .i1⟩
  | .hbm, ⟨84, _⟩ => ⟨S8x16x4096x128, .f32⟩
  | .hbm, ⟨85, _⟩ => ⟨S8x16x4096x128, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v1 : Ref sig .tc := ⟨.hbm, 5, rfl⟩
abbrev main_c : Ref sig .tc := ⟨.hbm, 6, rfl⟩
abbrev main_call1_call0_cst : Ref sig .tc := ⟨.hbm, 7, rfl⟩
abbrev main_call1_call0_v0 : Ref sig .tc := ⟨.hbm, 8, rfl⟩
abbrev main_call1_call0_v1 : Ref sig .tc := ⟨.hbm, 9, rfl⟩
abbrev main_call1_call0_cst_0 : Ref sig .tc := ⟨.hbm, 10, rfl⟩
abbrev main_call1_call0_v2 : Ref sig .tc := ⟨.hbm, 11, rfl⟩
abbrev main_call1_call0_v3 : Ref sig .tc := ⟨.hbm, 12, rfl⟩
abbrev main_call1_call0_v4 : Ref sig .tc := ⟨.hbm, 13, rfl⟩
abbrev main_call1_call0_v5 : Ref sig .tc := ⟨.hbm, 14, rfl⟩
abbrev main_call1_call0_v6 : Ref sig .tc := ⟨.hbm, 15, rfl⟩
abbrev main_call1_call0_v7 : Ref sig .tc := ⟨.hbm, 16, rfl⟩
abbrev main_call1_call0_cst_1 : Ref sig .tc := ⟨.hbm, 17, rfl⟩
abbrev main_call1_call0_v8 : Ref sig .tc := ⟨.hbm, 18, rfl⟩
abbrev main_call1_call0_cst_2 : Ref sig .tc := ⟨.hbm, 19, rfl⟩
abbrev main_call1_call0_v9 : Ref sig .tc := ⟨.hbm, 20, rfl⟩
abbrev main_call1_call0_v10 : Ref sig .tc := ⟨.hbm, 21, rfl⟩
abbrev main_call1_call0_v11 : Ref sig .tc := ⟨.hbm, 22, rfl⟩
abbrev main_call1_call0_v12 : Ref sig .tc := ⟨.hbm, 23, rfl⟩
abbrev main_call1_call0_cst_3 : Ref sig .tc := ⟨.hbm, 24, rfl⟩
abbrev main_call1_call0_v13 : Ref sig .tc := ⟨.hbm, 25, rfl⟩
abbrev main_call1_call0_cst_4 : Ref sig .tc := ⟨.hbm, 26, rfl⟩
abbrev main_call1_call0_call0_v0 : Ref sig .tc := ⟨.hbm, 27, rfl⟩
abbrev main_call1_call0_call0_v1 : Ref sig .tc := ⟨.hbm, 28, rfl⟩
abbrev main_call1_v0 : Ref sig .tc := ⟨.hbm, 29, rfl⟩
abbrev main_v2 : Ref sig .tc := ⟨.hbm, 30, rfl⟩
abbrev main_cst : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst_1 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_c_2 : Ref sig .tc := ⟨.hbm, 46, rfl⟩
abbrev main_call2_v0 : Ref sig .tc := ⟨.hbm, 47, rfl⟩
abbrev main_call2_c : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_c_1 : Ref sig .tc := ⟨.hbm, 54, rfl⟩
abbrev main_call2_v5 : Ref sig .tc := ⟨.hbm, 55, rfl⟩
abbrev main_call2_v6 : Ref sig .tc := ⟨.hbm, 56, rfl⟩
abbrev main_call2_c_2 : Ref sig .tc := ⟨.hbm, 57, rfl⟩
abbrev main_call2_v7 : Ref sig .tc := ⟨.hbm, 58, rfl⟩
abbrev main_call2_v8 : Ref sig .tc := ⟨.hbm, 59, rfl⟩
abbrev main_call2_c_3 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_v15 : Ref sig .tc := ⟨.hbm, 67, rfl⟩
abbrev main_v16 : Ref sig .tc := ⟨.hbm, 68, rfl⟩
abbrev main_c_3 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_c_4 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_cst_5 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_v23 : Ref sig .tc := ⟨.hbm, 82, rfl⟩
abbrev main_call4_v0 : Ref sig .tc := ⟨.hbm, 83, rfl⟩
abbrev main_call4_v1 : Ref sig .tc := ⟨.hbm, 84, rfl⟩
abbrev main_v24 : Ref sig .tc := ⟨.hbm, 85, rfl⟩

abbrev nD : Nat := 1
abbrev τ : Topo := Topo.v7x

variable {F : FTy → Type} [FloatOps F]

class Facts₀ : Prop where
  slices_S8x4096x128_S8x1x128_0_0_0 : S8x4096x128.Slices ![0, 0, 0] S8x1x128
  concatenates_S8x1x128_S8x4096x128_S8x4097x128_d1 : Shape.Concatenates [S8x1x128, S8x4096x128] S8x4097x128 1
  slices_S8x4097x128_S8x4096x128_0_1_0 : S8x4097x128.Slices ![0, 1, 0] S8x4096x128
  slices_S8x4097x128_S8x4096x128_0_0_0 : S8x4097x128.Slices ![0, 0, 0] S8x4096x128
  reducesTo_S8x4096x128_S8x128_d1 : S8x4096x128.ReducesTo [1] S8x128
  h_S_ : 0 < S_.numel
  bcast_S8x128_S8x1x128_0_2 : S8x128.BroadcastsInDim S8x1x128 (![0, 2] : Fin 2 → Fin S8x1x128.rank)
  bcast_S_S8x1x128 : S_.BroadcastsInDim S8x1x128 (![] : Fin 0 → Fin S8x1x128.rank)
  bcast_S8x1x128_S8x4096x128_0_1_2 : S8x1x128.BroadcastsInDim S8x4096x128 (![0, 1, 2] : Fin 3 → Fin S8x4096x128.rank)
  bcast_S_S8x4096x128 : S_.BroadcastsInDim S8x4096x128 (![] : Fin 0 → Fin S8x4096x128.rank)
  bcast_S_S16 : S_.BroadcastsInDim S16 (![] : Fin 0 → Fin S16.rank)
  bcast_S16_S1x16x1x1_1 : S16.BroadcastsInDim S1x16x1x1 (![1] : Fin 1 → Fin S1x16x1x1.rank)
  bcast_S_S1x16x1x1 : S_.BroadcastsInDim S1x16x1x1 (![] : Fin 0 → Fin S1x16x1x1.rank)
  bcast_S8x4096x128_S8x1x4096x128_0_2_3 : S8x4096x128.BroadcastsInDim S8x1x4096x128 (![0, 2, 3] : Fin 3 → Fin S8x1x4096x128.rank)
  bcast_S1x16x1x1_S8x16x4096x128_0_1_2_3 : S1x16x1x1.BroadcastsInDim S8x16x4096x128 (![0, 1, 2, 3] : Fin 4 → Fin S8x16x4096x128.rank)
  bcast_S8x1x4096x128_S8x16x4096x128_0_1_2_3 : S8x1x4096x128.BroadcastsInDim S8x16x4096x128 (![0, 1, 2, 3] : Fin 4 → Fin S8x16x4096x128.rank)
  bcast_S_S8x16x4096x128 : S_.BroadcastsInDim S8x16x4096x128 (![] : Fin 0 → Fin S8x16x4096x128.rank)

variable [Facts₀]

class Facts : Prop extends Facts₀ where

variable [Facts]
-- ==== Proof.Spec.lean ====
/-
  The specification. A feature array x[b, s, f] (8 rows, 4096 positions, 128 channels) is encoded as spikes over 16 time
  steps: first the causal first difference along s; then, per row and channel, the population mean and variance of that
  difference over the 4096 positions; the difference divided by (standard deviation + ε); the two threshold tests
  "≥ θ" of the normalised difference and of its negative, as 0/1 numbers; and the period-3 time pattern: step t carries
  the positive test when t ≡ 0, the negative test when t ≡ 1 and silence when t ≡ 2 (mod 3).
  Everything is stated over the extended reals, index by index, over a difference array `d` given as a parameter, so that
  the two programs — which differ only in how row 0 of the difference is produced — share every later definition.
  The float literals (4096, ε = f32(1e-8), θ = f32(0.1)) are kept as their words: both programs carry the same ones.
-/
import Idealize.ShloMosaic.PureOps.Ideal
import Idealize.ShloMosaic.Lib.ValueIdx

noncomputable section

namespace Cert.Spike

open Idealize.ShloMosaic Idealize.ShloMosaic.ValueIdx

/-- The argument's shape [8, 4096, 128] and the result's [8, 16, 4096, 128]. -/
abbrev SX : Shape := ⟨3, ![8, 4096, 128]⟩
abbrev SY : Shape := ⟨4, ![8, 16, 4096, 128]⟩

/-- A difference array: row, position, channel. -/
abbrev Diff : Type := Fin 8 → Fin 4096 → Fin 128 → EReal

/-- The position before `s` (position 0 is its own predecessor). -/
def prev (s : Fin 4096) : Fin 4096 := ⟨s.val - 1, by omega⟩

/-- The number of positions, 4096, as both programs write it. -/
def count : EReal := Ideal.ofBits .f32 0x45800000#32
/-- ε, the float nearest 1e-8. -/
def eps : EReal := Ideal.ofBits .f32 0x322BCC77#32
/-- θ, the float nearest 0.1. -/
def thr : EReal := Ideal.ofBits .f32 0x3DCCCCCD#32

/-- The mean of the difference over the positions, per row and channel. -/
def mean (d : Diff) (b : Fin 8) (f : Fin 128) : EReal :=
  Ideal.div (∑ s : Fin 4096, d b s f) count

/-- The population variance of the difference over the positions. -/
def var (d : Diff) (b : Fin 8) (f : Fin 128) : EReal :=
  Ideal.div (∑ s : Fin 4096, (d b s f - mean d b f) * (d b s f - mean d b f)) count

/-- The difference over (standard deviation + ε). -/
def nd (d : Diff) (b : Fin 8) (s : Fin 4096) (f : Fin 128) : EReal :=
  Ideal.div (d b s f) (Ideal.sqrt (var d b f) + eps)

/-- 1 where the normalised difference reaches θ, else 0. -/
def pos (d : Diff) (b : Fin 8) (s : Fin 4096) (f : Fin 128) : EReal :=
  (((Ideal.cmp .oge (nd d b s f) thr).toNat : ℝ) : EReal)

/-- 1 where the negated normalised difference reaches θ, else 0. -/
def neg (d : Diff) (b : Fin 8) (s : Fin 4096) (f : Fin 128) : EReal :=
  (((Ideal.cmp .oge (-(nd d b s f)) thr).toNat : ℝ) : EReal)

/-- The spikes: at time step t the positive test if t ≡ 0, the negative test if t ≡ 1, silence if t ≡ 2 (mod 3). -/
def pattern (d : Diff) : SY.Idx → EReal := fun j =>
  if (j 1).val % 3 = 0 then pos d (j 0) (j 2) (j 3)
  else if (j 1).val % 3 = 1 then neg d (j 0) (j 2) (j 3)
  else 0

/-- The kernel's difference: row 0 is written as zero, every other row is x[s] - x[s-1]. -/
def diffK (x : SX.Idx → EReal) : Diff := fun b s f =>
  if s.val = 0 then 0 else x (ix3 b s f) - x (ix3 b (prev s) f)

/-- The reference's difference: x with its first row put in front, minus itself one position earlier — so
    row 0 is x[0] - x[0], every other row x[s] - x[s-1]. -/
def diffR (x : SX.Idx → EReal) : Diff := fun b s f =>
  x (ix3 b s f) - x (ix3 b (prev s) f)

/-- On finite inputs the two differences are one array: x[0] - x[0] = 0 for a real x[0]. -/
theorem diffR_eq_diffK (x : SX.Idx → EReal) (hfin : ∀ i, ∃ r : ℝ, x i = (r : EReal)) : diffR x = diffK x := by
  funext b s f
  unfold diffR diffK
  by_cases h : s.val = 0
  · rw [if_pos h]
    have hs : prev s = s := Fin.ext (by unfold prev; simp only []; omega)
    rw [hs]
    obtain ⟨r, hr⟩ := hfin (ix3 b s f)
    rw [hr, ← EReal.coe_sub, sub_self, EReal.coe_zero]
  · rw [if_neg h]

end Cert.Spike

end
-- ==== Proof.Finite.lean ====
/-
  The precondition, read: "every entry of the argument has absolute value below +∞" (an all-reduction by `and` of the
  entrywise comparison against the infinity word) says that every entry is a real number.
-/
import proofs.«156955_j19748259627071_2_alg».proof.Pre_finite_inputs
import proofs.«156955_j19748259627071_2_alg».proof.Proof.Gen.Pre_finite_inputs
import Idealize.ShloMosaic.PureOps.Ideal
import Idealize.ShloMosaic.Lib.ReduceAll
import Idealize.ShloMosaic.Lib.IdealHost
import Idealize.ShloMosaic.Lib.ValueIdx

noncomputable section

namespace Cert.Pre_finite_inputs.Finite

open Idealize.ShloMosaic Idealize.ShloMosaic.ValueIdx Cert.Pre_finite_inputs

instance : Subsingleton S_.Idx := ⟨fun a b => funext fun d => d.elim0⟩

/-- The infinity word denotes +∞. -/
theorem inf_word : Ideal.ofBits .f32 0x7F800000#32 = (⊤ : EReal) := by
  simp [Ideal.ofBits, Ideal.ieee]

/-- Under the precondition every entry of the argument is a real number. -/
theorem real_of_pre (x : FVec Ideal S8x4096x128 .f32) (h : fn (F := Ideal) x = fun _ => 1#1)
    (i : S8x4096x128.Idx) : ∃ r : ℝ, x i = (r : EReal) := by
  have h0 := congrFun h ix0
  dsimp only [fn] at h0
  have hi := Host.reduce_andi_all _ _ _ _ _ h0 i
  rw [cmpf_apply, broadcastInDim_scalar_apply, constant_apply, inf_word] at hi
  have hlt : max (x i) (-(x i)) < (⊤ : EReal) := by
    by_contra hc
    have e : Ideal.cmp .olt (max (x i) (-(x i))) ⊤ = 0#1 := by
      unfold Ideal.cmp
      simp [hc]
    have hi' : Ideal.cmp .olt (max (x i) (-(x i))) ⊤ = 1#1 := hi
    rw [e] at hi'
    exact absurd hi' (by decide)
  have hne_top : x i ≠ ⊤ := fun e => by rw [e] at hlt; simp at hlt
  have hne_bot : x i ≠ ⊥ := fun e => by rw [e] at hlt; simp at hlt
  exact ⟨(x i).toReal, (EReal.coe_toReal hne_top hne_bot).symm⟩

end Cert.Pre_finite_inputs.Finite

end
-- ==== Proof.KernelPieces.lean ====
import proofs.«156955_j19748259627071_2_alg».proof.Proof.GenP.KernelIdeal.Value
import Idealize.ShloMosaic.Lib.Pipeline.Value
import Idealize.ShloMosaic.Lib.Tactic
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)

namespace Cert.KernelIdeal.Pieces

open Cert.KernelIdeal Cert.KernelIdeal.Gen Cert.KernelIdeal.GenP

variable {F : FTy → Type} [FloatOps F]

open Idealize.ShloMosaic.ValueIdx

/-! ## What one grid point leaves behind

A grid point is a row `b` of the argument and one half `h` of the 16 time steps. The body's output block holds the eight
time slots of that half; slot `k` is time step `8 h + k`. In the first half the body first computes the two threshold
tests of the row into the two scratch arrays and then fills the slots from them; in the second half it fills the slots
from the scratch arrays as the first half left them. -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- Eight time slots filled from a positive-test array `P` and a negative-test array `N`: slot `k` holds `P` when
    `k + o ≡ 0`, `N` when `k + o ≡ 1`, and zeros when `k + o ≡ 2` (mod 3); `o` is the first slot's time step. -/
def slots (o : Nat) (P N : Vec F S4096x128 .f32) : Vec F S1x8x4096x128 .f32 := fun y =>
  if ((y 1).val + o) % 3 = 0 then P (ix2 (y 2) (y 3))
  else if ((y 1).val + o) % 3 = 1 then N (ix2 (y 2) (y 3))
  else Scalar.ofBits .f32 0x00000000#32

/-- `slots` read at slot `k`. -/
theorem slots_apply (o : Nat) (P N : Vec F S4096x128 .f32) (k : Fin 8) (s : Fin 4096) (f : Fin 128) :
    slots o P N (ix4 (0 : Fin 1) k s f)
      = if (k.val + o) % 3 = 0 then P (ix2 s f) else if (k.val + o) % 3 = 1 then N (ix2 s f)
        else Scalar.ofBits .f32 0x00000000#32 := rfl

/-- Slot `k` of the block, entered at the local index `(u, w, s, f)` of a one-slot rectangle, is the block's index
    `(0, k, s, f)`. -/
theorem slot_emb (k : Nat) (hk : k < 8)
    (inb : ∀ a, (![0, k, 0, 0] : Fin 4 → Nat) a + (![1, 1, 4096, 128] : Fin 4 → Nat) a ≤ S1x8x4096x128.size a)
    (u w : Fin 1) (s : Fin 4096) (f : Fin 128) :
    (Rect.unit (s := S1x8x4096x128) ![0, k, 0, 0] ![1, 1, 4096, 128] inb).emb (ix4 u w s f)
      = ix4 (0 : Fin 1) (⟨k, hk⟩ : Fin 8) s f := by
  funext a
  refine Fin.ext ?_
  rw [Rect.emb_apply]
  have hu := u.isLt
  have hw := w.isLt
  match a with
  | ⟨0, _⟩ => show 0 + 1 * u.val = 0; omega
  | ⟨1, _⟩ => show k + 1 * w.val = k; omega
  | ⟨2, _⟩ => show 0 + 1 * s.val = s.val; omega
  | ⟨3, _⟩ => show 0 + 1 * f.val = f.val; omega

/-- A [4096, 128] array viewed as one slot [1, 1, 4096, 128] reads the array at the two trailing coordinates. -/
theorem slot_cast {α : Type} (v : S4096x128.Idx → α) (h : S4096x128.ShapeCasts S1x1x4096x128)
    (u w : Fin 1) (s : Fin 4096) (f : Fin 128) :
    shapeCast S1x1x4096x128 v h (ix4 u w s f) = v (ix2 s f) :=
  shapeCast_apply v h _ _ (by
    have hu := u.isLt
    have hw := w.isLt
    rw [Shape.rowMajor_val_two, Shape.rowMajor_val_four]
    show s.val * 128 + f.val = ((u.val * 1 + w.val) * 4096 + s.val) * 128 + f.val
    omega)

/-- One slot store whose payload is an array `v` viewed as a slot agrees with `slots o P N` on its rectangle as soon as
    `v` is the array that `slots` puts in that slot. -/
theorem slot_piece (o k : Nat) (hk : k < 8) (P N v : Vec F S4096x128 .f32)
    (inb : ∀ a, (![0, k, 0, 0] : Fin 4 → Nat) a + (![1, 1, 4096, 128] : Fin 4 → Nat) a ≤ S1x8x4096x128.size a)
    (h : S4096x128.ShapeCasts S1x1x4096x128)
    (hv : ∀ s f, v (ix2 s f) = slots o P N (ix4 (0 : Fin 1) (⟨k, hk⟩ : Fin 8) s f))
    (x : (Rect.unit (s := S1x8x4096x128) ![0, k, 0, 0] ![1, 1, 4096, 128] inb).shape.Idx) :
    shapeCast S1x1x4096x128 v h x
      = slots o P N ((Rect.unit (s := S1x8x4096x128) ![0, k, 0, 0] ![1, 1, 4096, 128] inb).emb x) := by
  obtain ⟨u, w, s, f, rfl⟩ : ∃ (u w : Fin 1) (s : Fin 4096) (f : Fin 128), x = ix4 u w s f :=
    ⟨x 0, x 1, x 2, x 3, eq_ix4 x⟩
  rw [slot_emb k hk inb u w s f, slot_cast v h u w s f, hv s f]

/-! ## The two cases, read

`P` below is the first scratch array, `N` the second. -/

/-- First half of a row: the first scratch array ends holding the positive test of the row block `x0`. -/
theorem scratchP_A (c : Dev nD) (i : grid0.Coords) (arg2 : Memref sig .tc .vmem S1x4096x128 .f32) (harg2 : arg2.IsWhole) (arg3 : Memref sig .tc .vmem S1x8x4096x128 .f32) (harg3 : arg3.IsWhole) (arg4 : Memref sig .tc .vmem S4096x128 .f32) (harg4 : arg4.IsWhole) (arg5 : Memref sig .tc .vmem S4096x128 .f32) (harg5 : arg5.IsWhole) (hc0 : cond0_0 i) (hc1 : cond0_1 i) (hc2 : ¬cond0_2 i) (hc3 : ¬cond0_3 i) (hc4 : ¬cond0_4 i) (hc5 : cond0_5 i) (hc6 : ¬cond0_6 i) (hc7 : ¬cond0_7 i) (hc8 : ¬cond0_8 i) (hc9 : cond0_9 i) (hc10 : cond0_10 i) (hc11 : ¬cond0_11 i) (hc12 : ¬cond0_12 i) (hc13 : ¬cond0_13 i) (hc14 : cond0_14 i) (hc15 : ¬cond0_15 i) (hc16 : ¬cond0_16 i) (hc17 : ¬cond0_17 i) (hc18 : cond0_18 i) (hc19 : cond0_19 i) (hc20 : ¬cond0_20 i) (hc21 : ¬cond0_21 i) (hc22 : ¬cond0_22 i) (hc23 : cond0_23 i) (hc24 : ¬cond0_24 i) (x0 : Vec F S1x4096x128 .f32) :
    sout0_A_0 c i arg2 harg2 arg3 harg3 arg4 harg4 arg5 harg5 hc0 hc1 hc2 hc3 hc4 hc5 hc6 hc7 hc8 hc9 hc10 hc11 hc12 hc13 hc14 hc15 hc16 hc17 hc18 hc19 hc20 hc21 hc22 hc23 hc24 x0 = k0_pay5 x0 := by
  unfold sout0_A_0
  rw [View.read_writes_eq_canon _ _ _ (scover0_A_0 c i arg2 harg2 arg3 harg3 arg4 harg4 arg5 harg5 hc0 hc1 hc2 hc3 hc4 hc5 hc6 hc7 hc8 hc9 hc10 hc11 hc12 hc13 hc14 hc15 hc16 hc17 hc18 hc19 hc20 hc21 hc22 hc23 hc24 x0)]
  unfold kernelRun0_A
  dsimp only
  sl_unfold_words
  rw [View.canon_unit_zero zeros2]
  simp only [View.readAt_eq_ld, harg2.read_unread, View.ld_unit_zero (S := S1x4096x128) zeros3]

/-- First half of a row: the second scratch array ends holding the negative test of the row block `x0`. -/
theorem scratchN_A (c : Dev nD) (i : grid0.Coords) (arg2 : Memref sig .tc .vmem S1x4096x128 .f32) (harg2 : arg2.IsWhole) (arg3 : Memref sig .tc .vmem S1x8x4096x128 .f32) (harg3 : arg3.IsWhole) (arg4 : Memref sig .tc .vmem S4096x128 .f32) (harg4 : arg4.IsWhole) (arg5 : Memref sig .tc .vmem S4096x128 .f32) (harg5 : arg5.IsWhole) (hc0 : cond0_0 i) (hc1 : cond0_1 i) (hc2 : ¬cond0_2 i) (hc3 : ¬cond0_3 i) (hc4 : ¬cond0_4 i) (hc5 : cond0_5 i) (hc6 : ¬cond0_6 i) (hc7 : ¬cond0_7 i) (hc8 : ¬cond0_8 i) (hc9 : cond0_9 i) (hc10 : cond0_10 i) (hc11 : ¬cond0_11 i) (hc12 : ¬cond0_12 i) (hc13 : ¬cond0_13 i) (hc14 : cond0_14 i) (hc15 : ¬cond0_15 i) (hc16 : ¬cond0_16 i) (hc17 : ¬cond0_17 i) (hc18 : cond0_18 i) (hc19 : cond0_19 i) (hc20 : ¬cond0_20 i) (hc21 : ¬cond0_21 i) (hc22 : ¬cond0_22 i) (hc23 : cond0_23 i) (hc24 : ¬cond0_24 i) (x0 : Vec F S1x4096x128 .f32) :
    sout0_A_1 c i arg2 harg2 arg3 harg3 arg4 harg4 arg5 harg5 hc0 hc1 hc2 hc3 hc4 hc5 hc6 hc7 hc8 hc9 hc10 hc11 hc12 hc13 hc14 hc15 hc16 hc17 hc18 hc19 hc20 hc21 hc22 hc23 hc24 x0 = k0_pay6 x0 := by
  unfold sout0_A_1
  rw [View.read_writes_eq_canon _ _ _ (scover0_A_1 c i arg2 harg2 arg3 harg3 arg4 harg4 arg5 harg5 hc0 hc1 hc2 hc3 hc4 hc5 hc6 hc7 hc8 hc9 hc10 hc11 hc12 hc13 hc14 hc15 hc16 hc17 hc18 hc19 hc20 hc21 hc22 hc23 hc24 x0)]
  unfold kernelRun0_A
  dsimp only
  sl_unfold_words
  rw [View.canon_unit_zero zeros2]
  simp only [View.readAt_eq_ld, harg2.read_unread, View.ld_unit_zero (S := S1x4096x128) zeros3]

/-- First half of a row: the output block ends holding time steps 0 … 7 of the two tests of the row block `x0` —
    each slot store's payload is the scratch array just written (read back whole), or zeros, viewed as one slot. -/
theorem block_A (c : Dev nD) (i : grid0.Coords) (arg2 : Memref sig .tc .vmem S1x4096x128 .f32) (harg2 : arg2.IsWhole) (arg3 : Memref sig .tc .vmem S1x8x4096x128 .f32) (harg3 : arg3.IsWhole) (arg4 : Memref sig .tc .vmem S4096x128 .f32) (harg4 : arg4.IsWhole) (arg5 : Memref sig .tc .vmem S4096x128 .f32) (harg5 : arg5.IsWhole) (hc0 : cond0_0 i) (hc1 : cond0_1 i) (hc2 : ¬cond0_2 i) (hc3 : ¬cond0_3 i) (hc4 : ¬cond0_4 i) (hc5 : cond0_5 i) (hc6 : ¬cond0_6 i) (hc7 : ¬cond0_7 i) (hc8 : ¬cond0_8 i) (hc9 : cond0_9 i) (hc10 : cond0_10 i) (hc11 : ¬cond0_11 i) (hc12 : ¬cond0_12 i) (hc13 : ¬cond0_13 i) (hc14 : cond0_14 i) (hc15 : ¬cond0_15 i) (hc16 : ¬cond0_16 i) (hc17 : ¬cond0_17 i) (hc18 : cond0_18 i) (hc19 : cond0_19 i) (hc20 : ¬cond0_20 i) (hc21 : ¬cond0_21 i) (hc22 : ¬cond0_22 i) (hc23 : cond0_23 i) (hc24 : ¬cond0_24 i) (x0 : Vec F S1x4096x128 .f32) :
    out0_A_1 c i arg2 harg2 arg3 harg3 arg4 harg4 arg5 harg5 hc0 hc1 hc2 hc3 hc4 hc5 hc6 hc7 hc8 hc9 hc10 hc11 hc12 hc13 hc14 hc15 hc16 hc17 hc18 hc19 hc20 hc21 hc22 hc23 hc24 x0 = slots 0 (k0_pay5 x0) (k0_pay6 x0) := by
  funext y
  unfold out0_A_1
  rw [View.read_writes_eq_canon _ _ _ (cover0_A_1 c i arg2 harg2 arg3 harg3 arg4 harg4 arg5 harg5 hc0 hc1 hc2 hc3 hc4 hc5 hc6 hc7 hc8 hc9 hc10 hc11 hc12 hc13 hc14 hc15 hc16 hc17 hc18 hc19 hc20 hc21 hc22 hc23 hc24 x0)]
  refine View.canon_apply_of_pieces (slots 0 (k0_pay5 x0) (k0_pay6 x0)) _ ?_ y
    (cover0_A_1 c i arg2 harg2 arg3 harg3 arg4 harg4 arg5 harg5 hc0 hc1 hc2 hc3 hc4 hc5 hc6 hc7 hc8 hc9 hc10 hc11 hc12 hc13 hc14 hc15 hc16 hc17 hc18 hc19 hc20 hc21 hc22 hc23 hc24 x0 y)
  intro p hp
  unfold kernelRun0_A at hp
  dsimp only at hp
  simp only [List.mem_cons, List.not_mem_nil, or_false] at hp
  rcases hp with rfl | rfl | rfl | rfl | rfl | rfl | rfl | rfl
  · sl_unfold_words
    simp only [View.readCov_unit_zero (S := S4096x128) _ zeros2, View.readAt_eq_ld, harg2.read_unread,
      View.ld_unit_zero (S := S1x4096x128) zeros3]
    exact slot_piece 0 7 (by omega) (k0_pay5 x0) (k0_pay6 x0) (k0_pay6 x0) _ _ (fun s f => by rw [slots_apply, if_neg (by decide), if_pos (by decide)])
  · sl_unfold_words
    simp only [View.readCov_unit_zero (S := S4096x128) _ zeros2, View.readAt_eq_ld, harg2.read_unread,
      View.ld_unit_zero (S := S1x4096x128) zeros3]
    exact slot_piece 0 6 (by omega) (k0_pay5 x0) (k0_pay6 x0) (k0_pay5 x0) _ _ (fun s f => by rw [slots_apply, if_pos (by decide)])
  · dsimp only
    exact slot_piece 0 5 (by omega) (k0_pay5 x0) (k0_pay6 x0) k0_pay7 _ _ (fun s f => by rw [slots_apply, if_neg (by decide), if_neg (by decide)]; rfl)
  · sl_unfold_words
    simp only [View.readCov_unit_zero (S := S4096x128) _ zeros2, View.readAt_eq_ld, harg2.read_unread,
      View.ld_unit_zero (S := S1x4096x128) zeros3]
    exact slot_piece 0 4 (by omega) (k0_pay5 x0) (k0_pay6 x0) (k0_pay6 x0) _ _ (fun s f => by rw [slots_apply, if_neg (by decide), if_pos (by decide)])
  · sl_unfold_words
    simp only [View.readCov_unit_zero (S := S4096x128) _ zeros2, View.readAt_eq_ld, harg2.read_unread,
      View.ld_unit_zero (S := S1x4096x128) zeros3]
    exact slot_piece 0 3 (by omega) (k0_pay5 x0) (k0_pay6 x0) (k0_pay5 x0) _ _ (fun s f => by rw [slots_apply, if_pos (by decide)])
  · dsimp only
    exact slot_piece 0 2 (by omega) (k0_pay5 x0) (k0_pay6 x0) k0_pay7 _ _ (fun s f => by rw [slots_apply, if_neg (by decide), if_neg (by decide)]; rfl)
  · sl_unfold_words
    simp only [View.readCov_unit_zero (S := S4096x128) _ zeros2, View.readAt_eq_ld, harg2.read_unread,
      View.ld_unit_zero (S := S1x4096x128) zeros3]
    exact slot_piece 0 1 (by omega) (k0_pay5 x0) (k0_pay6 x0) (k0_pay6 x0) _ _ (fun s f => by rw [slots_apply, if_neg (by decide), if_pos (by decide)])
  · sl_unfold_words
    simp only [View.readCov_unit_zero (S := S4096x128) _ zeros2, View.readAt_eq_ld, harg2.read_unread,
      View.ld_unit_zero (S := S1x4096x128) zeros3]
    exact slot_piece 0 0 (by omega) (k0_pay5 x0) (k0_pay6 x0) (k0_pay5 x0) _ _ (fun s f => by rw [slots_apply, if_pos (by decide)])

/-- Second half of a row: the output block ends holding time steps 8 … 15 of the two scratch arrays `xs0`, `xs1` as the
    body found them. -/
theorem block_B (c : Dev nD) (i : grid0.Coords) (arg2 : Memref sig .tc .vmem S1x4096x128 .f32) (harg2 : arg2.IsWhole) (arg3 : Memref sig .tc .vmem S1x8x4096x128 .f32) (harg3 : arg3.IsWhole) (arg4 : Memref sig .tc .vmem S4096x128 .f32) (harg4 : arg4.IsWhole) (arg5 : Memref sig .tc .vmem S4096x128 .f32) (harg5 : arg5.IsWhole) (hc0 : ¬cond0_0 i) (hc1 : ¬cond0_1 i) (hc2 : ¬cond0_2 i) (hc3 : cond0_3 i) (hc4 : cond0_4 i) (hc5 : ¬cond0_5 i) (hc6 : ¬cond0_6 i) (hc7 : ¬cond0_7 i) (hc8 : cond0_8 i) (hc9 : ¬cond0_9 i) (hc10 : ¬cond0_10 i) (hc11 : ¬cond0_11 i) (hc12 : cond0_12 i) (hc13 : cond0_13 i) (hc14 : ¬cond0_14 i) (hc15 : ¬cond0_15 i) (hc16 : ¬cond0_16 i) (hc17 : cond0_17 i) (hc18 : ¬cond0_18 i) (hc19 : ¬cond0_19 i) (hc20 : ¬cond0_20 i) (hc21 : cond0_21 i) (hc22 : cond0_22 i) (hc23 : ¬cond0_23 i) (hc24 : ¬cond0_24 i) (x0 : Vec F S1x4096x128 .f32)
    (xs0 xs1 : Vec F S4096x128 .f32) :
    out0_B_1 c i arg2 harg2 arg3 harg3 arg4 harg4 arg5 harg5 hc0 hc1 hc2 hc3 hc4 hc5 hc6 hc7 hc8 hc9 hc10 hc11 hc12 hc13 hc14 hc15 hc16 hc17 hc18 hc19 hc20 hc21 hc22 hc23 hc24 x0 xs0 xs1 = slots 8 xs0 xs1 := by
  funext y
  unfold out0_B_1
  rw [View.read_writes_eq_canon _ _ _ (cover0_B_1 c i arg2 harg2 arg3 harg3 arg4 harg4 arg5 harg5 hc0 hc1 hc2 hc3 hc4 hc5 hc6 hc7 hc8 hc9 hc10 hc11 hc12 hc13 hc14 hc15 hc16 hc17 hc18 hc19 hc20 hc21 hc22 hc23 hc24 x0 xs0 xs1)]
  refine View.canon_apply_of_pieces (slots 8 xs0 xs1) _ ?_ y
    (cover0_B_1 c i arg2 harg2 arg3 harg3 arg4 harg4 arg5 harg5 hc0 hc1 hc2 hc3 hc4 hc5 hc6 hc7 hc8 hc9 hc10 hc11 hc12 hc13 hc14 hc15 hc16 hc17 hc18 hc19 hc20 hc21 hc22 hc23 hc24 x0 xs0 xs1 y)
  intro p hp
  unfold kernelRun0_B at hp
  dsimp only at hp
  simp only [List.mem_cons, List.not_mem_nil, or_false] at hp
  rcases hp with rfl | rfl | rfl | rfl | rfl | rfl | rfl | rfl
  · simp only [View.readAt_eq_ld, harg4.read_unread, harg5.read_unread, View.ld_unit_zero (S := S4096x128) zeros2]
    exact slot_piece 8 7 (by omega) xs0 xs1 xs0 _ _ (fun s f => by rw [slots_apply, if_pos (by decide)])
  · dsimp only
    exact slot_piece 8 6 (by omega) xs0 xs1 k0_pay7 _ _ (fun s f => by rw [slots_apply, if_neg (by decide), if_neg (by decide)]; rfl)
  · simp only [View.readAt_eq_ld, harg4.read_unread, harg5.read_unread, View.ld_unit_zero (S := S4096x128) zeros2]
    exact slot_piece 8 5 (by omega) xs0 xs1 xs1 _ _ (fun s f => by rw [slots_apply, if_neg (by decide), if_pos (by decide)])
  · simp only [View.readAt_eq_ld, harg4.read_unread, harg5.read_unread, View.ld_unit_zero (S := S4096x128) zeros2]
    exact slot_piece 8 4 (by omega) xs0 xs1 xs0 _ _ (fun s f => by rw [slots_apply, if_pos (by decide)])
  · dsimp only
    exact slot_piece 8 3 (by omega) xs0 xs1 k0_pay7 _ _ (fun s f => by rw [slots_apply, if_neg (by decide), if_neg (by decide)]; rfl)
  · simp only [View.readAt_eq_ld, harg4.read_unread, harg5.read_unread, View.ld_unit_zero (S := S4096x128) zeros2]
    exact slot_piece 8 2 (by omega) xs0 xs1 xs1 _ _ (fun s f => by rw [slots_apply, if_neg (by decide), if_pos (by decide)])
  · simp only [View.readAt_eq_ld, harg4.read_unread, harg5.read_unread, View.ld_unit_zero (S := S4096x128) zeros2]
    exact slot_piece 8 1 (by omega) xs0 xs1 xs0 _ _ (fun s f => by rw [slots_apply, if_pos (by decide)])
  · dsimp only
    exact slot_piece 8 0 (by omega) xs0 xs1 k0_pay7 _ _ (fun s f => by rw [slots_apply, if_neg (by decide), if_neg (by decide)]; rfl)

end Cert.KernelIdeal.Pieces

end
-- ==== Proof.KernelPayload.lean ====
/-
  The body's arithmetic, read index by index over the extended reals.
  The body turns one row block x0[0, s, f] of the argument into: the causal difference along s with position 0 set to zero
  (a rotation by one position down the rows, subtracted, under a mask on the row number); its column means (a sum over
  the 4096 rows, divided by 4096); the centred squares' column means; the square root plus ε; the quotient; and the two
  threshold tests as 0/1 numbers. Each of these is the specification's definition of the same name at the row block's
  difference array.
-/
import proofs.«156955_j19748259627071_2_alg».proof.Proof.Gen.KernelIdeal.Skeleton
import proofs.«156955_j19748259627071_2_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.KernelIdeal.Payload

open Idealize.ShloMosaic Idealize.ShloMosaic.ValueIdx Cert.KernelIdeal Cert.KernelIdeal.Gen Cert.Spike

/-! ## Words and bits -/

/-- A select on "row number = 0" is the `if` on the row number. -/
theorem select_row0 {α : Type} (n : Nat) (hn : n < 4096) (A B : α) :
    Scalar.select (IntOp.cmpi .eq (BitVec.ofNat 32 n) 0#32) A B = if n = 0 then A else B := by
  by_cases h : n = 0
  · subst h; rfl
  · rw [if_neg h]
    have hne : (BitVec.ofNat 32 n == 0#32) = false := by
      rw [beq_eq_false_iff_ne]
      intro e
      have e' := congrArg BitVec.toNat e
      rw [BitVec.toNat_ofNat, Nat.mod_eq_of_lt (by omega)] at e'
      exact h e'
    show (if BitVec.ofBool (BitVec.ofNat 32 n == 0#32) = 1 then A else B) = B
    rw [hne]
    rfl

/-- A bit widened to a word and read as a signed integer is the bit's number. -/
theorem bit_toInt (b : BitVec 1) : ((b.setWidth 32).toInt : ℝ) = (b.toNat : ℝ) := by
  rcases BitVec.eq_zero_or_eq_one b with h | h <;> subst h
  · have e : ((0#1 : BitVec 1).setWidth 32).toInt = 0 := by decide
    have e' : (0#1 : BitVec 1).toNat = 0 := by decide
    rw [e, e']; norm_num
  · have e : ((1#1 : BitVec 1).setWidth 32).toInt = 1 := by decide
    have e' : (1#1 : BitVec 1).toNat = 1 := by decide
    rw [e, e']; norm_num

/-! ## The row block's difference -/

/-- The difference array of a row block: position 0 is zero, position s > 0 is x0[s] - x0[s-1]; it does not depend on
    the row number it is asked at (the block is one row). -/
def rowDiff (x0 : Vec Ideal S1x4096x128 .f32) : Diff := fun _ s f =>
  if s.val = 0 then 0 else x0 (ix3 (0 : Fin 1) s f) - x0 (ix3 (0 : Fin 1) (prev s) f)

/-- The body's masked difference of the row block. -/
def diffVec (x0 : Vec Ideal S1x4096x128 .f32) : FVec Ideal S4096x128 .f32 :=
  select (cmpi .eq (iota .tc S4096x128 32 [0] iota_S4096x128_d0_w32) (broadcast S4096x128 0#32))
    (broadcast S4096x128 (Scalar.ofBits .f32 0x00000000#32))
    (subf (shapeCast S4096x128 x0 shapeCasts_S1x4096x128_S4096x128)
      (dynamicRotate 0 1#32 none (shapeCast S4096x128 x0 shapeCasts_S1x4096x128_S4096x128) rotates_S4096x128_d0))

theorem diffVec_apply (x0 : Vec Ideal S1x4096x128 .f32) (b : Fin 8) (s : Fin 4096) (f : Fin 128) :
    diffVec x0 (ix2 s f) = rowDiff x0 b s f := by
  unfold diffVec rowDiff
  rw [select_apply]
  show Scalar.select (IntOp.cmpi .eq (iota .tc S4096x128 32 [0] iota_S4096x128_d0_w32 (ix2 s f)) 0#32) _ _ = _
  rw [iota_single_apply]
  show Scalar.select (IntOp.cmpi .eq (BitVec.ofNat 32 s.val) 0#32) _ _ = _
  rw [select_row0 s.val s.isLt]
  by_cases h : s.val = 0
  · rw [if_pos h, if_pos h]
    show Ideal.ofBits .f32 0x00000000#32 = 0
    exact Ideal.ofBits_zero_f32
  · rw [if_neg h, if_neg h, subf_apply, shapeCast_1ab_ab_apply]
    refine congrArg (fun z => x0 (ix3 (0 : Fin 1) s f) - z) ?_
    rw [dynamicRotate_apply 0 1#32 _ rotates_S4096x128_d0 (ix2 s f) (ix2 (prev s) f) (fun a => by
      match a with
      | ⟨0, _⟩ =>
        show (prev s).val = if (0 : Fin 2) = 0 then (s.val + 4096 - (1#32 : BitVec 32).toNat % 4096) % 4096 else s.val
        rw [if_pos rfl]
        have hs := s.isLt
        show s.val - 1 = (s.val + 4096 - 1 % 4096) % 4096
        omega
      | ⟨1, _⟩ =>
        show f.val = if (1 : Fin 2) = 0 then _ else f.val
        rw [if_neg (by decide)])]
    rw [shapeCast_1ab_ab_apply]

/-! ## Column statistics -/

/-- A sum down the 4096 rows of a [4096, 128] array, read at a column. -/
theorem colSum (src : FVec Ideal S4096x128 .f32) (h : S4096x128.Reduces [0] S128)
    (hacc : (0x00000000#32 : BitVec 32) = 0x00000000#32) (f : Fin 128) :
    multiReduction .add [0] S128 src 0x00000000#32 h (.inl rfl) hacc (ix1 f) = ∑ s : Fin 4096, src (ix2 s f) := by
  refine (Ideal.multiReduction_add_single src 0x00000000#32 h (.inl rfl) hacc (ix1 f)).trans ?_
  refine Finset.sum_congr rfl fun k _ => congrArg src ?_
  funext a
  match a with
  | ⟨0, _⟩ => rfl
  | ⟨1, _⟩ => rfl

/-- The body's column mean, kept as one row [1, 128]: the column sums over the count. -/
def colMean (d : FVec Ideal S4096x128 .f32) : FVec Ideal S1x128 .f32 :=
  divf (shapeCast S1x128 (multiReduction .add [0] S128 d 0x00000000#32 reduces_S4096x128_S128 (.inl rfl) rfl) shapeCasts_S128_S1x128)
    (broadcast S1x128 (Scalar.ofBits .f32 0x45800000#32))

theorem colMean_apply (d : FVec Ideal S4096x128 .f32) (f : Fin 128) :
    colMean d (ix2 (0 : Fin 1) f) = Ideal.div (∑ s : Fin 4096, d (ix2 s f)) count := by
  unfold colMean
  rw [divf_apply, shapeCast_a_1a_apply, colSum]
  rfl

/-- The body's centred array and its normalised array. -/
def centred (d : FVec Ideal S4096x128 .f32) : FVec Ideal S4096x128 .f32 :=
  subf d (broadcastTo S4096x128 (colMean d) broadcasts_S1x128_S4096x128)

def normalised (d : FVec Ideal S4096x128 .f32) : FVec Ideal S4096x128 .f32 :=
  divf d (broadcastTo S4096x128
    (addf (sqrt (colMean (mulf (centred d) (centred d)))) (broadcast S1x128 (Scalar.ofBits .f32 0x322BCC77#32)))
    broadcasts_S1x128_S4096x128)

theorem centred_apply (d : FVec Ideal S4096x128 .f32) (D : Diff) (b : Fin 8)
    (hD : ∀ s f, d (ix2 s f) = D b s f) (s : Fin 4096) (f : Fin 128) :
    centred d (ix2 s f) = D b s f - mean D b f := by
  unfold centred mean
  rw [subf_apply, broadcastTo_1b_ab_apply, colMean_apply, hD]
  simp only [hD]

theorem normalised_apply (d : FVec Ideal S4096x128 .f32) (D : Diff) (b : Fin 8)
    (hD : ∀ s f, d (ix2 s f) = D b s f) (s : Fin 4096) (f : Fin 128) :
    normalised d (ix2 s f) = nd D b s f := by
  unfold normalised nd var
  rw [divf_apply, broadcastTo_1b_ab_apply, addf_apply, hD]
  show Ideal.div (D b s f) (Ideal.sqrt (colMean (mulf (centred d) (centred d)) (ix2 (0 : Fin 1) f)) + eps) = _
  rw [colMean_apply]
  simp only [mulf_apply, centred_apply d D b hD]

/-- The body's quotient payload is the normalised array of the masked difference. -/
theorem pay4_eq (x0 : Vec Ideal S1x4096x128 .f32) : k0_pay4 (F := Ideal) x0 = normalised (diffVec x0) := rfl

theorem pay4_apply (x0 : Vec Ideal S1x4096x128 .f32) (b : Fin 8) (s : Fin 4096) (f : Fin 128) :
    k0_pay4 (F := Ideal) x0 (ix2 s f) = nd (rowDiff x0) b s f := by
  rw [pay4_eq]
  exact normalised_apply _ _ b (fun s f => diffVec_apply x0 b s f) s f

/-- The positive test stored in the first scratch array. -/
theorem pay5_apply (x0 : Vec Ideal S1x4096x128 .f32) (b : Fin 8) (s : Fin 4096) (f : Fin 128) :
    k0_pay5 (F := Ideal) x0 (ix2 s f) = pos (rowDiff x0) b s f := by
  unfold k0_pay5 pos
  rw [shapeCast_self, sitofp_apply, extui_apply, cmpf_apply, broadcast_apply, pay4_apply x0 b s f]
  show (((((Ideal.cmp .oge (nd (rowDiff x0) b s f) (Ideal.ofBits .f32 0x3DCCCCCD#32)).setWidth 32).toInt : ℝ)) : EReal) = _
  rw [bit_toInt]
  rfl

/-- The negative test stored in the second scratch array: the kernel negates by subtracting from zero. -/
theorem pay6_apply (x0 : Vec Ideal S1x4096x128 .f32) (b : Fin 8) (s : Fin 4096) (f : Fin 128) :
    k0_pay6 (F := Ideal) x0 (ix2 s f) = neg (rowDiff x0) b s f := by
  unfold k0_pay6 neg
  rw [shapeCast_self, sitofp_apply, extui_apply, cmpf_apply, broadcast_apply, subf_apply, broadcast_apply,
    pay4_apply x0 b s f]
  show (((((Ideal.cmp .oge (Ideal.ofBits .f32 0x00000000#32 - nd (rowDiff x0) b s f) (Ideal.ofBits .f32 0x3DCCCCCD#32)).setWidth 32).toInt : ℝ)) : EReal) = _
  rw [bit_toInt, Ideal.ofBits_zero_f32, zero_sub]
  rfl

end Cert.KernelIdeal.Payload

end
-- ==== Proof.KernelValue.lean ====
/-
  From the grid points to the result array. Point t of the 16 is row b = t / 2 of the argument and half h = t % 2 of the
  time steps; its output block is [b, 8h … 8h+7, all positions, all channels] of the result. In the first half the block is
  filled from the two tests just computed from the row; in the second half from the scratch arrays as the first half of
  the same row left them — so both halves hold the pattern of the row's tests, and the 16 blocks tile the result.
-/
import proofs.«156955_j19748259627071_2_alg».proof.Proof.GenP.KernelIdeal.Value
import proofs.«156955_j19748259627071_2_alg».proof.Proof.KernelPieces
import proofs.«156955_j19748259627071_2_alg».proof.Proof.KernelPayload
import proofs.«156955_j19748259627071_2_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.GenP Cert.KernelIdeal.ValueP
open Cert.KernelIdeal.Pieces Cert.KernelIdeal.Payload Cert.Spike Idealize.ShloMosaic.ValueIdx

variable (m : (ℓ : Loc nD τ sig) → Buf (Elt Ideal) ℓ) (ρ : Dev nD → PrngReg)

/-! ## The tests depend on one row of the difference only -/

theorem nd_congr {D D' : Diff} {b b' : Fin 8} (h : ∀ s f, D b s f = D' b' s f) (s : Fin 4096) (f : Fin 128) :
    nd D b s f = nd D' b' s f := by
  unfold nd var mean
  simp only [h]

theorem pos_congr {D D' : Diff} {b b' : Fin 8} (h : ∀ s f, D b s f = D' b' s f) (s : Fin 4096) (f : Fin 128) :
    pos D b s f = pos D' b' s f := by
  unfold pos
  rw [nd_congr h]

theorem neg_congr {D D' : Diff} {b b' : Fin 8} (h : ∀ s f, D b s f = D' b' s f) (s : Fin 4096) (f : Fin 128) :
    neg D b s f = neg D' b' s f := by
  unfold neg
  rw [nd_congr h]

/-! ## The index maps, decided over the 16 points -/

theorem idx_facts : ∀ t : Fin cfg0.N,
    win0_0.index t (0 : Fin 3) = t.val / 2 ∧ win0_0.index t (1 : Fin 3) = 0 ∧ win0_0.index t (2 : Fin 3) = 0
    ∧ win0_1.index t (0 : Fin 4) = t.val / 2 ∧ win0_1.index t (1 : Fin 4) = t.val % 2
    ∧ win0_1.index t (2 : Fin 4) = 0 ∧ win0_1.index t (3 : Fin 4) = 0 :=
  (by decide +kernel : ∀ t : Fin grid0.N, _)

/-- The row of the argument that point `t` works on. -/
def row (t : Fin cfg0.N) : Fin 8 := ⟨t.val / 2, by have := t.isLt; have hN : cfg0.N = 16 := N_0; omega⟩

/-- The input block at point `t` is row `row t` of the argument. -/
theorem iblk_apply (c : Dev nD) (t : Fin cfg0.N) (u : Fin 1) (s : Fin 4096) (f : Fin 128) :
    iblk m c 0 t (ix3 u s f) = V m c main_arg0 (ix3 (row t) s f) := by
  show V m c main_arg0 (((cfg0.win 0).blk t).view.emb (ix3 u s f)) = V m c main_arg0 (ix3 (row t) s f)
  refine congrArg (V m c main_arg0) ?_
  obtain ⟨e0, e1, e2, -⟩ := idx_facts t
  have hu := u.isLt
  funext a
  apply Fin.ext
  match a with
  | ⟨0, _⟩ => show win0_0.index t (0 : Fin 3) * 1 + 1 * u.val = t.val / 2; omega
  | ⟨1, _⟩ => show win0_0.index t (1 : Fin 3) * 4096 + 1 * s.val = s.val; omega
  | ⟨2, _⟩ => show win0_0.index t (2 : Fin 3) * 128 + 1 * f.val = f.val; omega

/-- So the row block's difference is the argument's difference at that row. -/
theorem rowDiff_iblk (c : Dev nD) (t : Fin cfg0.N) (b' : Fin 8) (s : Fin 4096) (f : Fin 128) :
    rowDiff (iblk m c 0 t) b' s f = diffK (V m c main_arg0) (row t) s f := by
  unfold rowDiff diffK
  rw [iblk_apply, iblk_apply]

/-- The two tests of the row block at point `t`, as arrays, are the argument's tests at that row. -/
theorem pay5_iblk (c : Dev nD) (t : Fin cfg0.N) (s : Fin 4096) (f : Fin 128) :
    k0_pay5 (F := Ideal) (iblk m c 0 t) (ix2 s f) = pos (diffK (V m c main_arg0)) (row t) s f :=
  (pay5_apply _ (row t) s f).trans (pos_congr (fun s f => rowDiff_iblk m c t (row t) s f) s f)

theorem pay6_iblk (c : Dev nD) (t : Fin cfg0.N) (s : Fin 4096) (f : Fin 128) :
    k0_pay6 (F := Ideal) (iblk m c 0 t) (ix2 s f) = neg (diffK (V m c main_arg0)) (row t) s f :=
  (pay6_apply _ (row t) s f).trans (neg_congr (fun s f => rowDiff_iblk m c t (row t) s f) s f)

/-! ## What each point writes back -/

/-- Eight slots against the pattern: slot `k` of a block whose first slot is time step `o` is time step `tt` of the
    pattern when `tt ≡ k + o` (mod 3). -/
theorem slots_pattern (o : Nat) (P N : Vec Ideal S4096x128 .f32) (D : Diff) (b : Fin 8) (u : Fin 1) (k : Fin 8)
    (tt : Fin 16) (s : Fin 4096) (f : Fin 128) (htt : tt.val % 3 = (k.val + o) % 3)
    (hP : ∀ s f, P (ix2 s f) = pos D b s f) (hN : ∀ s f, N (ix2 s f) = neg D b s f) :
    slots o P N (ix4 u k s f) = pattern D (ix4 b tt s f) := by
  obtain rfl : u = 0 := Subsingleton.elim _ _
  rw [slots_apply, hP, hN]
  unfold pattern
  show _ = if tt.val % 3 = 0 then pos D b s f else if tt.val % 3 = 1 then neg D b s f else 0
  rw [htt]
  have hz : (Scalar.ofBits .f32 0x00000000#32 : Ideal .f32) = 0 := Ideal.ofBits_zero_f32
  rw [hz]

/-- First half of a row: the write-back is the block filled from the row's own tests. -/
theorem flushed_even (c : Dev nD) (t : Fin cfg0.N) (h : t.val % 2 = 0) :
    (dats m 0 c).flushed 1 t
      = (cfg0.win 1).cut (grid0.coords t) (slots 0 (k0_pay5 (iblk m c 0 t)) (k0_pay6 (iblk m c 0 t))) := by
  have hn : ¬t.val % 2 = 1 := by omega
  rw [flushed1_A m c t h h hn hn h hn h h hn hn h hn h h hn hn h, block_A]

/-- Second half of a row: the write-back is the block filled from the scratch arrays, which hold the tests of the row
    block of the point before — the first half of the same row. -/
theorem flushed_odd (c : Dev nD) (t : Fin cfg0.N) (h : t.val % 2 = 1) :
    (dats m 0 c).flushed 1 t
      = (cfg0.win 1).cut (grid0.coords t)
          (slots 8 (k0_pay5 (iblk m c 0 ⟨t.val - 1, Nat.lt_of_le_of_lt (Nat.sub_le _ _) t.isLt⟩))
            (k0_pay6 (iblk m c 0 ⟨t.val - 1, Nat.lt_of_le_of_lt (Nat.sub_le _ _) t.isLt⟩))) := by
  have hn : ¬t.val % 2 = 0 := by omega
  rw [flushed1_B m c t hn hn h h hn h hn hn h h hn h hn hn h h hn, block_B]
  have hlt : t.val - 1 < cfg0.N := Nat.lt_of_le_of_lt (Nat.sub_le _ _) t.isLt
  have h' : (⟨t.val - 1, hlt⟩ : Fin cfg0.N).val % 2 = 0 := by show (t.val - 1) % 2 = 0; omega
  have hn' : ¬(⟨t.val - 1, hlt⟩ : Fin cfg0.N).val % 2 = 1 := by show ¬(t.val - 1) % 2 = 1; omega
  have e := outsAt0_A m c ⟨t.val - 1, hlt⟩ h' h' hn' hn' h' hn' h' h' hn' hn' h' hn' h' h' hn' hn' h'
  rw [scratchP_A, scratchN_A] at e
  have eP : (outsAt0 m c (t.val - 1) hlt).2.1 = k0_pay5 (iblk m c 0 ⟨t.val - 1, hlt⟩) :=
    congrArg (fun z => z.2.1) e
  have eN : (outsAt0 m c (t.val - 1) hlt).2.2 = k0_pay6 (iblk m c 0 ⟨t.val - 1, hlt⟩) :=
    congrArg (fun z => z.2.2) e
  rw [eP, eN]

/-- The block of point `t`, entered at its local index, is the result's index (row, 8·half + slot, position, channel). -/
theorem oblk_emb (t : Fin cfg0.N) (u : Fin 1) (k : Fin 8) (s : Fin 4096) (f : Fin 128) :
    ((cfg0.win 1).blk t).view.emb (ix4 u k s f)
      = ix4 (row t) (⟨(t.val % 2) * 8 + k.val, by have := k.isLt; omega⟩ : Fin 16) s f := by
  obtain ⟨-, -, -, e3, e4, e5, e6⟩ := idx_facts t
  have hu := u.isLt
  funext a
  apply Fin.ext
  match a with
  | ⟨0, _⟩ => show win0_1.index t (0 : Fin 4) * 1 + 1 * u.val = t.val / 2; omega
  | ⟨1, _⟩ => show win0_1.index t (1 : Fin 4) * 8 + 1 * k.val = (t.val % 2) * 8 + k.val; omega
  | ⟨2, _⟩ => show win0_1.index t (2 : Fin 4) * 4096 + 1 * s.val = s.val; omega
  | ⟨3, _⟩ => show win0_1.index t (3 : Fin 4) * 128 + 1 * f.val = f.val; omega

/-- WHAT POINT `t` WRITES BACK is block `t` of the pattern of the argument's difference. -/
theorem flushed_eq (c : Dev nD) (t : Fin cfg0.N) :
    (dats m 0 c).flushed 1 t
      = ((cfg0.win 1).blk t).view.read (Elt Ideal) (pattern (diffK (V m c main_arg0))) := by
  have hN : cfg0.N = 16 := N_0
  have ht := t.isLt
  by_cases h : t.val % 2 = 0
  · rw [flushed_even m c t h]
    funext (j : S1x8x4096x128.Idx)
    obtain ⟨u, k, s, f, rfl⟩ : ∃ (u : Fin 1) (k : Fin 8) (s : Fin 4096) (f : Fin 128), j = ix4 u k s f :=
      ⟨j 0, j 1, j 2, j 3, eq_ix4 j⟩
    show slots 0 (k0_pay5 (iblk m c 0 t)) (k0_pay6 (iblk m c 0 t)) (ix4 u k s f)
      = pattern (diffK (V m c main_arg0)) (((cfg0.win 1).blk t).view.emb (ix4 u k s f))
    rw [oblk_emb]
    exact slots_pattern 0 _ _ _ (row t) u k _ s f (by show ((t.val % 2) * 8 + k.val) % 3 = (k.val + 0) % 3; omega)
      (pay5_iblk m c t) (pay6_iblk m c t)
  · have h1 : t.val % 2 = 1 := by omega
    rw [flushed_odd m c t h1]
    have hlt : t.val - 1 < cfg0.N := Nat.lt_of_le_of_lt (Nat.sub_le _ _) t.isLt
    have hrow : row ⟨t.val - 1, hlt⟩ = row t := Fin.ext (by show (t.val - 1) / 2 = t.val / 2; omega)
    funext (j : S1x8x4096x128.Idx)
    obtain ⟨u, k, s, f, rfl⟩ : ∃ (u : Fin 1) (k : Fin 8) (s : Fin 4096) (f : Fin 128), j = ix4 u k s f :=
      ⟨j 0, j 1, j 2, j 3, eq_ix4 j⟩
    show slots 8 (k0_pay5 (iblk m c 0 ⟨t.val - 1, hlt⟩)) (k0_pay6 (iblk m c 0 ⟨t.val - 1, hlt⟩)) (ix4 u k s f)
      = pattern (diffK (V m c main_arg0)) (((cfg0.win 1).blk t).view.emb (ix4 u k s f))
    rw [oblk_emb]
    exact slots_pattern 8 _ _ _ (row t) u k _ s f (by show ((t.val % 2) * 8 + k.val) % 3 = (k.val + 8) % 3; omega)
      (fun s f => by rw [pay5_iblk, hrow]) (fun s f => by rw [pay6_iblk, hrow])

/-! ## The blocks tile the result -/

/-- An index of the result is in point `t`'s block iff each coordinate is in the block's range on its axis. -/
theorem mem_blk (t : Fin cfg0.N) (i : S8x16x4096x128.Idx) :
    i ∈ ((cfg0.win 1).blk t).view.set ↔ ∀ a : Fin 4, win0_1.index t a * S1x8x4096x128.size a ≤ (i a).val
      ∧ (i a).val < win0_1.index t a * S1x8x4096x128.size a + S1x8x4096x128.size a := by
  show i ∈ ((View.whole main_v0).slice (win0_1.rect t)).set ↔ _
  rw [View.set_slice_whole, Rect.mem_set_unit]
  exact Iff.rfl

/-- THE RESULT ARRAY after the run is the pattern of the argument's difference: index (b, tt, s, f) lies in the block of
    point 2 b + tt / 8, and every point writes back. -/
theorem final (c : Dev nD) : (dats m 0 c).arrAt 1 cfg0.N = pattern (diffK (V m c main_arg0)) :=
  (dats m 0 c).arrAt_eq_of_cover 1 (pattern (diffK (V m c main_arg0))) (fun t _ => flushed_eq m c t) fun i => by
    have hN : cfg0.N = 16 := N_0
    have h0 : (i 0).val < 8 := (i 0).isLt
    have h1 : (i 1).val < 16 := (i 1).isLt
    have h2 : (i 2).val < 4096 := (i 2).isLt
    have h3 : (i 3).val < 128 := (i 3).isLt
    obtain ⟨t, ht⟩ : ∃ t : Fin cfg0.N, t.val = (i 0).val * 2 + (i 1).val / 8 :=
      ⟨⟨(i 0).val * 2 + (i 1).val / 8, by omega⟩, rfl⟩
    refine ⟨t, flush0_1 t, ?_⟩
    rw [mem_blk]
    obtain ⟨-, -, -, e3, e4, e5, e6⟩ := idx_facts t
    intro a
    match a with
    | ⟨0, _⟩ =>
      show win0_1.index t (0 : Fin 4) * 1 ≤ (i 0).val ∧ (i 0).val < win0_1.index t (0 : Fin 4) * 1 + 1
      omega
    | ⟨1, _⟩ =>
      show win0_1.index t (1 : Fin 4) * 8 ≤ (i 1).val ∧ (i 1).val < win0_1.index t (1 : Fin 4) * 8 + 8
      omega
    | ⟨2, _⟩ =>
      show win0_1.index t (2 : Fin 4) * 4096 ≤ (i 2).val ∧ (i 2).val < win0_1.index t (2 : Fin 4) * 4096 + 4096
      omega
    | ⟨3, _⟩ =>
      show win0_1.index t (3 : Fin 4) * 128 ≤ (i 3).val ∧ (i 3).val < win0_1.index t (3 : Fin 4) * 128 + 128
      omega

/-! ## The run, read -/

/-- Every weakly fair execution of the idealized kernel terminates with the result array at the pattern of the
    argument's difference and the argument unchanged. -/
theorem run : θ_run defs (onTc (τ := τ) (main (F := Ideal))) ⟨m, fun _ => 0, ρ⟩ fun r => ∀ c : Dev nD,
      r.2.mem ((c : Thread nD τ).loc main_v0) = pattern (diffK (m ((c : Thread nD τ).loc main_arg0)))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.KValue

end
-- ==== Proof.RefRunA.lean ====
/-
  The reference's @main as the straight line of host operations it is once its calls are inlined: the causal
  difference's four operations, the standard deviation's twenty-four (the variance's twenty, the guarded quotient's
  three, the square root), the remainder's twenty-one (its selection one of them), the two final selections' five
  and three, around @main's own twenty-eight — eighty-five in program order, each callee's line stated over the
  buffers its call names.
-/
import proofs.«156955_j19748259627071_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The eighty-five operations, in program order: a call's operations stand where the call stands, its arguments
    replaced by the operands' buffers and its values by the call's record. -/
abbrev ops : List (HloOp τ sig (Elt F)) :=
  [
    unary main_arg0 main_v0 ((extractStridedSlice S8x1x128 ![0, 0, 0] · slices_S8x4096x128_S8x1x128_0_0_0) : (⟨S8x4096x128, .f32⟩ : BufTy).Contents (Elt F) → (⟨S8x1x128, .f32⟩ : BufTy).Contents (Elt F)),
    TRef.binary (.of main_v0 : TRef sig ⟨S8x1x128, .f32⟩) (.of main_arg0 : TRef sig ⟨S8x4096x128, .f32⟩) main_call0.v0 (fun a b => concatenate S8x4097x128 1 [⟨S8x1x128, a⟩, ⟨S8x4096x128, b⟩] concatenates_S8x1x128_S8x4096x128_S8x4097x128_d1),
    TRef.unary main_call0.v0 main_call0.v1 (extractStridedSlice S8x4096x128 ![0, 1, 0] · slices_S8x4097x128_S8x4096x128_0_1_0),
    TRef.unary main_call0.v0 main_call0.v2 (extractStridedSlice S8x4096x128 ![0, 0, 0] · slices_S8x4097x128_S8x4096x128_0_0_0),
    TRef.binary main_call0.v1 main_call0.v2 main_call0.v3 subf,
    nullary main_c (constantI S_ 32 0#32),
    TRef.nullary main_call1.call0.cst (constant S_ .f32 0x00000000#32),
    TRef.binary (.of main_v1 : TRef sig ⟨S8x4096x128, .f32⟩) main_call1.call0.cst main_call1.call0.v0 (fun x v => Host.reduceAdd x v reducesTo_S8x4096x128_S8x128_d1 h_S_),
    TRef.unary main_call1.call0.v0 main_call1.call0.v1 (broadcastInDim S8x1x128 ![0, 2] bcast_S8x128_S8x1x128_0_2),
    TRef.nullary main_call1.call0.cst_0 (constant S_ .f32 0x45800000#32),
    TRef.unary main_call1.call0.cst_0 main_call1.call0.v2 (broadcastInDim S8x1x128 ![] bcast_S_S8x1x128),
    TRef.binary main_call1.call0.v1 main_call1.call0.v2 main_call1.call0.v3 Host.divf,
    TRef.unary main_call1.call0.v3 main_call1.call0.v4 (broadcastInDim S8x4096x128 ![0, 1, 2] bcast_S8x1x128_S8x4096x128_0_1_2),
    TRef.binary (.of main_v1 : TRef sig ⟨S8x4096x128, .f32⟩) main_call1.call0.v4 main_call1.call0.v5 subf,
    TRef.binary main_call1.call0.v5 main_call1.call0.v5 main_call1.call0.v6 mulf,
    TRef.unary (.of main_c : TRef sig ⟨S_, .i32⟩) main_call1.call0.v7 (sitofp .f32),
    TRef.nullary main_call1.call0.cst_1 (constant S_ .f32 0x45800000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S8x4096x128_S8x128_d1 h_S_),
    TRef.unary main_call1.call0.v9 main_call1.call0.v10 (broadcastInDim S8x1x128 ![0, 2] bcast_S8x128_S8x1x128_0_2),
    TRef.unary main_call1.call0.v8 main_call1.call0.v11 (broadcastInDim S8x1x128 ![] bcast_S_S8x1x128),
    TRef.binary main_call1.call0.v10 main_call1.call0.v11 main_call1.call0.v12 Host.divf,
    TRef.nullary main_call1.call0.cst_3 (constant S_ .f32 0x00000000#32),
    TRef.binary main_call1.call0.v8 main_call1.call0.cst_3 main_call1.call0.v13 (cmpf .ogt),
    TRef.nullary main_call1.call0.cst_4 (constant S_ .f32 0x7FC00000#32),
    TRef.unary main_call1.call0.cst_4 main_call1.call0.call0.v0 id,
    TRef.unary main_call1.call0.call0.v0 main_call1.call0.call0.v1 (broadcastInDim S8x1x128 ![] bcast_S_S8x1x128),
    TRef.ternary main_call1.call0.v13 main_call1.call0.v12 main_call1.call0.call0.v1 main_call1.call0.call0.v2 (fun p a b => select (broadcastInDim S8x1x128 ![] bcast_S_S8x1x128 p) a b),
    TRef.unary main_call1.call0.call0.v2 main_call1.v1 Host.sqrt,
    nullary main_cst (constant S_ .f32 0x322BCC77#32),
    unary main_cst main_v3 (broadcastInDim S8x1x128 ![] bcast_S_S8x1x128 : (⟨S_, .f32⟩ : BufTy).Contents (Elt F) → (⟨S8x1x128, .f32⟩ : BufTy).Contents (Elt F)),
    binary main_v2 main_v3 main_v4 (addf : (⟨S8x1x128, .f32⟩ : BufTy).Contents (Elt F) → (⟨S8x1x128, .f32⟩ : BufTy).Contents (Elt F) → (⟨S8x1x128, .f32⟩ : BufTy).Contents (Elt F)),
    unary main_v4 main_v5 (broadcastInDim S8x4096x128 ![0, 1, 2] bcast_S8x1x128_S8x4096x128_0_1_2 : (⟨S8x1x128, .f32⟩ : BufTy).Contents (Elt F) → (⟨S8x4096x128, .f32⟩ : BufTy).Contents (Elt F)),
    binary main_v1 main_v5 main_v6 (Host.divf : (⟨S8x4096x128, .f32⟩ : BufTy).Contents (Elt F) → (⟨S8x4096x128, .f32⟩ : BufTy).Contents (Elt F) → (⟨S8x4096x128, .f32⟩ : BufTy).Contents (Elt F)),
    nullary main_cst_0 (constant S_ .f32 0x3DCCCCCD#32),
    unary main_cst_0 main_v7 (broadcastInDim S8x4096x128 ![] bcast_S_S8x4096x128 : (⟨S_, .f32⟩ : BufTy).Contents (Elt F) → (⟨S8x4096x128, .f32⟩ : BufTy).Contents (Elt F)),
    binary main_v6 main_v7 main_v8 (cmpf .oge : (⟨S8x4096x128, .f32⟩ : BufTy).Contents (Elt F) → (⟨S8x4096x128, .f32⟩ : BufTy).Contents (Elt F) → (⟨S8x4096x128, .i1⟩ : BufTy).Contents (Elt F)),
    unary main_v8 main_v9 (uitofp .f32 : (⟨S8x4096x128, .i1⟩ : BufTy).Contents (Elt F) → (⟨S8x4096x128, .f32⟩ : BufTy).Contents (Elt F)),
    unary main_v6 main_v10 (Host.negf : (⟨S8x4096x128, .f32⟩ : BufTy).Contents (Elt F) → (⟨S8x4096x128, .f32⟩ : BufTy).Contents (Elt F)),
    nullary main_cst_1 (constant S_ .f32 0x3DCCCCCD#32),
    unary main_cst_1 main_v11 (broadcastInDim S8x4096x128 ![] bcast_S_S8x4096x128 : (⟨S_, .f32⟩ : BufTy).Contents (Elt F) → (⟨S8x4096x128, .f32⟩ : BufTy).Contents (Elt F)),
    binary main_v10 main_v11 main_v12 (cmpf .oge : (⟨S8x4096x128, .f32⟩ : BufTy).Contents (Elt F) → (⟨S8x4096x128, .f32⟩ : BufTy).Contents (Elt F) → (⟨S8x4096x128, .i1⟩ : BufTy).Contents (Elt F)),
    unary main_v12 main_v13 (uitofp .f32 : (⟨S8x4096x128, .i1⟩ : BufTy).Contents (Elt F) → (⟨S8x4096x128, .f32⟩ : BufTy).Contents (Elt F)),
    nullary main_v14 (iotaInDim S16 32 0),
    nullary main_c_2 (constantI S_ 32 3#32),
    TRef.unary (.of main_c_2 : TRef sig ⟨S_, .i32⟩) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S16 ![] bcast_S_S16),
    TRef.binary (.of main_v14 : TRef sig ⟨S16, .i32⟩) main_call2.v3 main_call2.v4 Host.remsi,
    TRef.nullary main_call2.c_1 (constantI S_ 32 0#32),
    TRef.unary main_call2.c_1 main_call2.v5 (broadcastInDim S16 ![] bcast_S_S16),
    TRef.binary main_call2.v4 main_call2.v5 main_call2.v6 (cmpi .ne),
    TRef.nullary main_call2.c_2 (constantI S_ 32 0#32),
    TRef.unary main_call2.c_2 main_call2.v7 (broadcastInDim S16 ![] bcast_S_S16),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S16 ![] bcast_S_S16),
    TRef.binary main_call2.v8 main_call2.v10 main_call2.v11 (cmpi .ne),
    TRef.binary main_call2.v11 main_call2.v6 main_call2.v12 andi,
    TRef.unary main_call2.call0.v0 main_call2.v13 (broadcastInDim S16 ![] bcast_S_S16),
    TRef.binary main_call2.v4 main_call2.v13 main_call2.v14 addi,
    TRef.ternary main_call2.v12 main_call2.v14 main_call2.v4 main_call2.v15 select,
    unary main_v15 main_v16 (broadcastInDim S1x16x1x1 ![1] bcast_S16_S1x16x1x1_1 : (⟨S16, .i32⟩ : BufTy).Contents (Elt F) → (⟨S1x16x1x1, .i32⟩ : BufTy).Contents (Elt F)),
    nullary main_c_3 (constantI S_ 32 0#32),
    unary main_c_3 main_v17 (broadcastInDim S1x16x1x1 ![] bcast_S_S1x16x1x1 : (⟨S_, .i32⟩ : BufTy).Contents (Elt F) → (⟨S1x16x1x1, .i32⟩ : BufTy).Contents (Elt F)),
    binary main_v16 main_v17 main_v18 (cmpi .eq : (⟨S1x16x1x1, .i32⟩ : BufTy).Contents (Elt F) → (⟨S1x16x1x1, .i32⟩ : BufTy).Contents (Elt F) → (⟨S1x16x1x1, .i1⟩ : BufTy).Contents (Elt F)),
    unary main_v9 main_v19 (broadcastInDim S8x1x4096x128 ![0, 2, 3] bcast_S8x4096x128_S8x1x4096x128_0_2_3 : (⟨S8x4096x128, .f32⟩ : BufTy).Contents (Elt F) → (⟨S8x1x4096x128, .f32⟩ : BufTy).Contents (Elt F)),
    nullary main_c_4 (constantI S_ 32 1#32),
    unary main_c_4 main_v20 (broadcastInDim S1x16x1x1 ![] bcast_S_S1x16x1x1 : (⟨S_, .i32⟩ : BufTy).Contents (Elt F) → (⟨S1x16x1x1, .i32⟩ : BufTy).Contents (Elt F)),
    binary main_v16 main_v20 main_v21 (cmpi .eq : (⟨S1x16x1x1, .i32⟩ : BufTy).Contents (Elt F) → (⟨S1x16x1x1, .i32⟩ : BufTy).Contents (Elt F) → (⟨S1x16x1x1, .i1⟩ : BufTy).Contents (Elt F)),
    unary main_v13 main_v22 (broadcastInDim S8x1x4096x128 ![0, 2, 3] bcast_S8x4096x128_S8x1x4096x128_0_2_3 : (⟨S8x4096x128, .f32⟩ : BufTy).Contents (Elt F) → (⟨S8x1x4096x128, .f32⟩ : BufTy).Contents (Elt F)),
    nullary main_cst_5 (constant S_ .f32 0x00000000#32),
    TRef.unary (.of main_cst_5 : TRef sig ⟨S_, .f32⟩) main_call3.v0 id,
    TRef.unary (.of main_v21 : TRef sig ⟨S1x16x1x1, .i1⟩) main_call3.v1 (broadcastInDim S8x16x4096x128 ![0, 1, 2, 3] bcast_S1x16x1x1_S8x16x4096x128_0_1_2_3),
    TRef.unary (.of main_v22 : TRef sig ⟨S8x1x4096x128, .f32⟩) main_call3.v2 (broadcastInDim S8x16x4096x128 ![0, 1, 2, 3] bcast_S8x1x4096x128_S8x16x4096x128_0_1_2_3),
    TRef.unary main_call3.v0 main_call3.v3 (broadcastInDim S8x16x4096x128 ![] bcast_S_S8x16x4096x128),
    TRef.ternary main_call3.v1 main_call3.v2 main_call3.v3 main_call3.v4 select,
    TRef.unary (.of main_v18 : TRef sig ⟨S1x16x1x1, .i1⟩) main_call4.v0 (broadcastInDim S8x16x4096x128 ![0, 1, 2, 3] bcast_S1x16x1x1_S8x16x4096x128_0_1_2_3),
    TRef.unary (.of main_v19 : TRef sig ⟨S8x1x4096x128, .f32⟩) main_call4.v1 (broadcastInDim S8x16x4096x128 ![0, 1, 2, 3] bcast_S8x1x4096x128_S8x16x4096x128_0_1_2_3),
    TRef.ternary main_call4.v0 main_call4.v1 (.of main_v23 : TRef sig ⟨S8x16x4096x128, .f32⟩) main_call4.v2 select ]

set_option maxRecDepth 8192 in
/-- @main is that line. A step followed by a continuation is, by the definition of sequencing, the step with the
    continuation under it, and a callee's body applied to its operands' buffers and its call's record is its own
    steps in order: unfolded, both sides are one and the same chain of eighty-five operation steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation names TensorCore buffers only. -/
theorem ops_sub : (ops : List (HloOp τ sig (Elt F))).Forall fun op => op.bufs ⊆ tcRefs τ sig :=
  ⟨
    unary_bufs_sub .., binary_bufs_sub .., unary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    nullary_bufs_sub .., unary_bufs_sub .., binary_bufs_sub .., unary_bufs_sub .., binary_bufs_sub .., nullary_bufs_sub ..,
    unary_bufs_sub .., binary_bufs_sub .., unary_bufs_sub .., unary_bufs_sub .., nullary_bufs_sub .., unary_bufs_sub ..,
    binary_bufs_sub .., unary_bufs_sub .., nullary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., unary_bufs_sub .., nullary_bufs_sub .., unary_bufs_sub .., binary_bufs_sub .., unary_bufs_sub ..,
    nullary_bufs_sub .., unary_bufs_sub .., binary_bufs_sub .., unary_bufs_sub .., nullary_bufs_sub .., unary_bufs_sub ..,
    unary_bufs_sub .., unary_bufs_sub .., unary_bufs_sub .., ternary_bufs_sub .., unary_bufs_sub .., unary_bufs_sub ..,
    ternary_bufs_sub ..⟩

end Cert.ReferenceIdeal.RefRun

end
-- ==== Proof.RefFn.lean ====
/-
  The reference as one pure function of its argument: each operation of its @main, and of the functions @main calls
  (the causal difference; the standard deviation through the variance and its guarded quotient; the remainder of the
  time index by 3; the two selections), applied in program order to the values before it. The run of the reference ends
  with its result buffer at this function of the argument, and the value lemmas read this function index by index.
-/
import proofs.«156955_j19748259627071_2_alg».proof.ReferenceIdeal

noncomputable section

namespace Cert.ReferenceIdeal.RefFn

open Idealize.ShloMosaic Cert.ReferenceIdeal
open Cert.ReferenceIdeal.Facts₀ Cert.ReferenceIdeal.Facts

variable {F : FTy → Type} [FloatOps F] [Cert.ReferenceIdeal.Facts]

/-- The difference along the positions: the argument with its first row put in front, rows 1… minus rows 0…. -/
def diffFn (x : FVec F S8x4096x128 .f32) : FVec F S8x4096x128 .f32 :=
  let v0 : FVec F S8x1x128 .f32 := extractStridedSlice S8x1x128 ![0, 0, 0] x slices_S8x4096x128_S8x1x128_0_0_0
  let d0 : FVec F S8x4097x128 .f32 := concatenate S8x4097x128 1 [⟨S8x1x128, v0⟩, ⟨S8x4096x128, x⟩] concatenates_S8x1x128_S8x4096x128_S8x4097x128_d1
  let d1 : FVec F S8x4096x128 .f32 := extractStridedSlice S8x4096x128 ![0, 1, 0] d0 slices_S8x4097x128_S8x4096x128_0_1_0
  let d2 : FVec F S8x4096x128 .f32 := extractStridedSlice S8x4096x128 ![0, 0, 0] d0 slices_S8x4097x128_S8x4096x128_0_0_0
  subf d1 d2

/-- The variance over the positions with its keepdims shape [8, 1, 128]: the sum over 4096, the mean's quotient, the
    centred squares, their sum, the quotient by (4096 - float 0), kept where that divisor is positive. -/
def varFn (v1 : FVec F S8x4096x128 .f32) : FVec F S8x1x128 .f32 :=
  let c : IVec S_ 32 := constantI S_ 32 0#32
  let cst : FVec F S_ .f32 := constant S_ .f32 0x00000000#32
  let r0 : FVec F S8x128 .f32 := Host.reduceAdd v1 cst reducesTo_S8x4096x128_S8x128_d1 h_S_
  let r1 : FVec F S8x1x128 .f32 := broadcastInDim S8x1x128 ![0, 2] bcast_S8x128_S8x1x128_0_2 r0
  let cst_0 : FVec F S_ .f32 := constant S_ .f32 0x45800000#32
  let r2 : FVec F S8x1x128 .f32 := broadcastInDim S8x1x128 ![] bcast_S_S8x1x128 cst_0
  let r3 : FVec F S8x1x128 .f32 := Host.divf r1 r2
  let r4 : FVec F S8x4096x128 .f32 := broadcastInDim S8x4096x128 ![0, 1, 2] bcast_S8x1x128_S8x4096x128_0_1_2 r3
  let r5 : FVec F S8x4096x128 .f32 := subf v1 r4
  let r6 : FVec F S8x4096x128 .f32 := mulf r5 r5
  let r7 : FVec F S_ .f32 := sitofp .f32 c
  let cst_1 : FVec F S_ .f32 := constant S_ .f32 0x45800000#32
  let r8 : FVec F S_ .f32 := subf cst_1 r7
  let cst_2 : FVec F S_ .f32 := constant S_ .f32 0x00000000#32
  let r9 : FVec F S8x128 .f32 := Host.reduceAdd r6 cst_2 reducesTo_S8x4096x128_S8x128_d1 h_S_
  let r10 : FVec F S8x1x128 .f32 := broadcastInDim S8x1x128 ![0, 2] bcast_S8x128_S8x1x128_0_2 r9
  let r11 : FVec F S8x1x128 .f32 := broadcastInDim S8x1x128 ![] bcast_S_S8x1x128 r8
  let r12 : FVec F S8x1x128 .f32 := Host.divf r10 r11
  let cst_3 : FVec F S_ .f32 := constant S_ .f32 0x00000000#32
  let r13 : IVec S_ 1 := cmpf .ogt r8 cst_3
  let cst_4 : FVec F S_ .f32 := constant S_ .f32 0x7FC00000#32
  let w0 : FVec F S_ .f32 := id cst_4
  let w1 : FVec F S8x1x128 .f32 := broadcastInDim S8x1x128 ![] bcast_S_S8x1x128 w0
  select (broadcastInDim S8x1x128 ![] bcast_S_S8x1x128 r13) r12 w1

/-- The time index modulo 3, jnp's way: the truncated remainder of 0…15 by 3 (by 1 if the divisor were 0), corrected
    by the divisor where the remainder is nonzero and its sign differs from the divisor's. -/
def phaseFn : IVec S16 32 :=
  let v14 : IVec S16 32 := iotaInDim S16 32 0
  let c_2 : IVec S_ 32 := constantI S_ 32 3#32
  let q0 : IVec S_ 32 := id c_2
  let qc : IVec S_ 32 := constantI S_ 32 0#32
  let q1 : IVec S_ 1 := cmpi .eq q0 qc
  let qc0 : IVec S_ 32 := constantI S_ 32 1#32
  let q2 : IVec S_ 32 := select q1 qc0 q0
  let q3 : IVec S16 32 := broadcastInDim S16 ![] bcast_S_S16 q2
  let q4 : IVec S16 32 := Host.remsi v14 q3
  let qc1 : IVec S_ 32 := constantI S_ 32 0#32
  let q5 : IVec S16 32 := broadcastInDim S16 ![] bcast_S_S16 qc1
  let q6 : IVec S16 1 := cmpi .ne q4 q5
  let qc2 : IVec S_ 32 := constantI S_ 32 0#32
  let q7 : IVec S16 32 := broadcastInDim S16 ![] bcast_S_S16 qc2
  let q8 : IVec S16 1 := cmpi .slt q4 q7
  let qc3 : IVec S_ 32 := constantI S_ 32 0#32
  let q9 : IVec S_ 1 := cmpi .slt q2 qc3
  let q10 : IVec S16 1 := broadcastInDim S16 ![] bcast_S_S16 q9
  let q11 : IVec S16 1 := cmpi .ne q8 q10
  let q12 : IVec S16 1 := andi q11 q6
  let q13 : IVec S16 32 := broadcastInDim S16 ![] bcast_S_S16 q2
  let q14 : IVec S16 32 := addi q4 q13
  select q12 q14 q4

/-- The reference's result as a function of its argument. -/
def refFn (x : FVec F S8x4096x128 .f32) : FVec F S8x16x4096x128 .f32 :=
  let v1 : FVec F S8x4096x128 .f32 := diffFn x
  let w2 : FVec F S8x1x128 .f32 := varFn v1
  let v2 : FVec F S8x1x128 .f32 := Host.sqrt w2
  let cstm : FVec F S_ .f32 := constant S_ .f32 0x322BCC77#32
  let v3 : FVec F S8x1x128 .f32 := broadcastInDim S8x1x128 ![] bcast_S_S8x1x128 cstm
  let v4 : FVec F S8x1x128 .f32 := addf v2 v3
  let v5 : FVec F S8x4096x128 .f32 := broadcastInDim S8x4096x128 ![0, 1, 2] bcast_S8x1x128_S8x4096x128_0_1_2 v4
  let v6 : FVec F S8x4096x128 .f32 := Host.divf v1 v5
  let cst_0 : FVec F S_ .f32 := constant S_ .f32 0x3DCCCCCD#32
  let v7 : FVec F S8x4096x128 .f32 := broadcastInDim S8x4096x128 ![] bcast_S_S8x4096x128 cst_0
  let v8 : IVec S8x4096x128 1 := cmpf .oge v6 v7
  let v9 : FVec F S8x4096x128 .f32 := uitofp .f32 v8
  let v10 : FVec F S8x4096x128 .f32 := Host.negf v6
  let cst_1 : FVec F S_ .f32 := constant S_ .f32 0x3DCCCCCD#32
  let v11 : FVec F S8x4096x128 .f32 := broadcastInDim S8x4096x128 ![] bcast_S_S8x4096x128 cst_1
  let v12 : IVec S8x4096x128 1 := cmpf .oge v10 v11
  let v13 : FVec F S8x4096x128 .f32 := uitofp .f32 v12
  let v15 : IVec S16 32 := phaseFn
  let v16 : IVec S1x16x1x1 32 := broadcastInDim S1x16x1x1 ![1] bcast_S16_S1x16x1x1_1 v15
  let c_3 : IVec S_ 32 := constantI S_ 32 0#32
  let v17 : IVec S1x16x1x1 32 := broadcastInDim S1x16x1x1 ![] bcast_S_S1x16x1x1 c_3
  let v18 : IVec S1x16x1x1 1 := cmpi .eq v16 v17
  let v19 : FVec F S8x1x4096x128 .f32 := broadcastInDim S8x1x4096x128 ![0, 2, 3] bcast_S8x4096x128_S8x1x4096x128_0_2_3 v9
  let c_4 : IVec S_ 32 := constantI S_ 32 1#32
  let v20 : IVec S1x16x1x1 32 := broadcastInDim S1x16x1x1 ![] bcast_S_S1x16x1x1 c_4
  let v21 : IVec S1x16x1x1 1 := cmpi .eq v16 v20
  let v22 : FVec F S8x1x4096x128 .f32 := broadcastInDim S8x1x4096x128 ![0, 2, 3] bcast_S8x4096x128_S8x1x4096x128_0_2_3 v13
  let cst_5 : FVec F S_ .f32 := constant S_ .f32 0x00000000#32
  let a0 : FVec F S_ .f32 := id cst_5
  let a1 : IVec S8x16x4096x128 1 := broadcastInDim S8x16x4096x128 ![0, 1, 2, 3] bcast_S1x16x1x1_S8x16x4096x128_0_1_2_3 v21
  let a2 : FVec F S8x16x4096x128 .f32 := broadcastInDim S8x16x4096x128 ![0, 1, 2, 3] bcast_S8x1x4096x128_S8x16x4096x128_0_1_2_3 v22
  let a3 : FVec F S8x16x4096x128 .f32 := broadcastInDim S8x16x4096x128 ![] bcast_S_S8x16x4096x128 a0
  let v23 : FVec F S8x16x4096x128 .f32 := select a1 a2 a3
  let b0 : IVec S8x16x4096x128 1 := broadcastInDim S8x16x4096x128 ![0, 1, 2, 3] bcast_S1x16x1x1_S8x16x4096x128_0_1_2_3 v18
  let b1 : FVec F S8x16x4096x128 .f32 := broadcastInDim S8x16x4096x128 ![0, 1, 2, 3] bcast_S8x1x4096x128_S8x16x4096x128_0_1_2_3 v19
  select b0 b1 v23

end Cert.ReferenceIdeal.RefFn

end
-- ==== Proof.RefRun.lean ====
/-
  The reference's run: every weakly fair execution of its @main terminates without fault, with the result buffer at
  the reference function of the argument buffer and the argument buffer unchanged. The straight line of eighty-five
  operations folds, buffer by buffer, to the composition of the operations' functions in program order, which is the
  reference function's chain of definitions.
-/
import proofs.«156955_j19748259627071_2_alg».proof.Proof.RefRunA
import proofs.«156955_j19748259627071_2_alg».proof.Proof.RefFn

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

set_option maxRecDepth 8192 in
set_option maxHeartbeats 4000000 in
/-- The fold of the line at the result buffer. Each operation's result is read at the buffer it writes and passed
    over at every other buffer, so the fold is the operations' functions composed in program order over the
    argument's contents: the selection by phase 0 of the broadcast first test against the selection by phase 1 of
    the broadcast second test against zero, the tests those of the difference divided by its standard deviation plus
    the small constant. That composition is the reference function with its definitions unfolded: the transports a
    callee's line carries between a value's type and its buffer's type are identities at these buffers, and a value
    with several consumers is the same term at each. -/
theorem out_eq (V : Valuation τ sig (Elt F)) :
    after ops V (Proc.devRef .tc main_v24) = RefFn.refFn (F := F) (V (Proc.devRef .tc main_arg0)) := by
  after_results_simp
  rfl

set_option maxRecDepth 8192 in
/-- No operation of the line writes the argument's buffer: its contents pass through the fold. -/
theorem arg0_eq (V : Valuation τ sig (Elt F)) :
    after ops V (Proc.devRef .tc main_arg0) = V (Proc.devRef .tc main_arg0) := by
  after_results_simp

/-- On every device, for any float values, from any memory with zero counters: every weakly fair execution of @main
    terminates without fault, with the result buffer at the reference function of the argument buffer's launch
    contents and the argument buffer unchanged. -/
theorem run (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v24)
            = Cert.ReferenceIdeal.RefFn.refFn (F := F) (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) :=
  (θ_run defs _ _).mono (fun _ h c => ⟨(h c main_v24).trans (out_eq (launchContents m c)),
      (h c main_arg0).trans (arg0_eq (launchContents m c))⟩)
    (run_seq scopedRefs_eq scopedSems_eq defs main (fun _ => ops) main_eq (fun _ => ops_sub) m ρ)

end Cert.ReferenceIdeal.RefRun

end
-- ==== Proof.RefValueDiff.lean ====
/-
  The reference's first stage read at an index: the causal first difference along the positions. The argument with its
  row 0 put in front is an array of 4097 positions; the positions 1… of it are the argument itself, the positions 0…4095
  are the argument one position earlier with position 0 repeated; their difference at (b, s, f) is x[b, s, f] minus
  x[b, s - 1, f], and x[b, 0, f] - x[b, 0, f] at s = 0.
-/
import proofs.«156955_j19748259627071_2_alg».proof.Proof.RefFn
import proofs.«156955_j19748259627071_2_alg».proof.Proof.Spec
import proofs.«156955_j19748259627071_2_alg».proof.Proof.Gen.ReferenceIdeal
import Idealize.ShloMosaic.Lib.ValueLayout
import Idealize.ShloMosaic.Lib.IdealHost

noncomputable section

namespace Cert.ReferenceIdeal.RefValue

open Idealize.ShloMosaic Idealize.ShloMosaic.ValueIdx Cert.ReferenceIdeal Cert.Spike

variable {α : Type}

/-- The array with one row put in front, read one position past `s`: the second piece at `s`. -/
theorem front_concat_succ (v0 : S8x1x128.Idx → α) (x : S8x4096x128.Idx → α)
    (h : Shape.Concatenates [S8x1x128, S8x4096x128] S8x4097x128 1)
    (b : Fin 8) (s : Fin 4096) (f : Fin 128) (k : Fin 4097) (hk : k.val = s.val + 1) :
    concatenate S8x4097x128 1 [⟨S8x1x128, v0⟩, ⟨S8x4096x128, x⟩] h (ix3 b k f) = x (ix3 b s f) := by
  refine concatenate_pair_apply_right (1 : Fin 3) v0 x h (ix3 b k f) rfl rfl (ix3 b s f) (fun a ha => ?_) ?_
  · match a, ha with
    | ⟨0, _⟩, _ => rfl
    | ⟨1, _⟩, ha => exact absurd rfl ha
    | ⟨2, _⟩, _ => rfl
  · show s.val + 1 = k.val
    omega

/-- The same array read at position 0: the row put in front. -/
theorem front_concat_zero (v0 : S8x1x128.Idx → α) (x : S8x4096x128.Idx → α)
    (h : Shape.Concatenates [S8x1x128, S8x4096x128] S8x4097x128 1)
    (b : Fin 8) (f : Fin 128) (k : Fin 4097) (hk : k.val = 0) :
    concatenate S8x4097x128 1 [⟨S8x1x128, v0⟩, ⟨S8x4096x128, x⟩] h (ix3 b k f) = v0 (ix3 b 0 f) := by
  refine concatenate_pair_apply_left (1 : Fin 3) v0 x h (ix3 b k f) rfl (ix3 b 0 f) (fun a => ?_)
  match a with
  | ⟨0, _⟩ => rfl
  | ⟨1, _⟩ => exact hk.symm
  | ⟨2, _⟩ => rfl

/-- The reference's difference at (b, s, f): the argument there minus the argument one position earlier, position 0
    being its own predecessor. -/
theorem diffFn_apply (x : FVec Ideal S8x4096x128 .f32) (b : Fin 8) (s : Fin 4096) (f : Fin 128) :
    RefFn.diffFn (F := Ideal) x (ix3 b s f) = x (ix3 b s f) - x (ix3 b (prev s) f) := by
  unfold RefFn.diffFn
  rw [subf_apply]
  congr 1
  · rw [slice3_axis1_apply 1 _ _ b s f ⟨s.val + 1, by omega⟩ (by show s.val + 1 = 1 + s.val; omega)]
    exact front_concat_succ _ _ _ b s f _ rfl
  · rw [slice3_axis1_apply 0 _ _ b s f ⟨s.val, by omega⟩ (by show s.val = 0 + s.val; omega)]
    by_cases hs : s.val = 0
    · rw [front_concat_zero _ _ _ b f _ hs]
      rw [slice3_axis1_apply 0 _ _ b (0 : Fin 1) f (0 : Fin 4096) rfl]
      congr 2
      exact Fin.ext (by unfold prev; simp only [Fin.val_zero]; omega)
    · have hp : (prev s).val + 1 = s.val := by unfold prev; simp only []; omega
      exact front_concat_succ _ _ _ b (prev s) f _ hp.symm

end Cert.ReferenceIdeal.RefValue

end
-- ==== Proof.RefValueConsts.lean ====
/-
  The float literal 4096 — the number of positions, the divisor of the mean and of the variance — as the extended real
  its word denotes, and the two facts the reference's guarded quotient needs of it: it is positive, and an integer zero
  converted to a float and subtracted from it leaves it unchanged.
-/
import proofs.«156955_j19748259627071_2_alg».proof.Proof.Spec

noncomputable section

namespace Cert.ReferenceIdeal.RefValue

open Idealize.ShloMosaic Cert.Spike

/-- The word 0x45800000 denotes the real 4096. -/
theorem count_eq : Cert.Spike.count = ((4096 : ℝ) : EReal) := by
  unfold Cert.Spike.count
  simp [Ideal.ofBits, Ideal.ieee, -EReal.coe_mul]; norm_num

/-- 4096 is positive. -/
theorem count_pos : (0 : EReal) < Cert.Spike.count := by
  rw [count_eq]
  exact_mod_cast (by norm_num : (0 : ℝ) < 4096)

/-- The integer word zero, read signed, converts to the float zero. -/
theorem sitofp_zero : ((((0#32 : BitVec 32).toInt : ℤ) : ℝ) : EReal) = 0 := by
  rw [show (0#32 : BitVec 32).toInt = 0 from rfl, Int.cast_zero, EReal.coe_zero]

end Cert.ReferenceIdeal.RefValue

end
-- ==== Proof.RefValueStats.lean ====
/-
  The reference's second stage read at an index: the population variance over the 4096 positions, per row and channel,
  in its keepdims shape [8, 1, 128]. The sum over the positions from a zero initial value is a finite sum; the mean is that
  sum over 4096; the centred squares are summed and divided by 4096 - float(0) = 4096; and the quotient is kept because the
  guard "divisor > 0" holds.
-/
import proofs.«156955_j19748259627071_2_alg».proof.Proof.RefFn
import proofs.«156955_j19748259627071_2_alg».proof.Proof.Spec
import proofs.«156955_j19748259627071_2_alg».proof.Proof.Gen.ReferenceIdeal
import proofs.«156955_j19748259627071_2_alg».proof.Proof.RefValueConsts
import Idealize.ShloMosaic.Lib.ValueLayout
import Idealize.ShloMosaic.Lib.IdealHost

noncomputable section

namespace Cert.ReferenceIdeal.RefValue

open Idealize.ShloMosaic Idealize.ShloMosaic.ValueIdx Cert.ReferenceIdeal Cert.Spike

section Layout
variable {α : Type}

/-- The keepdims form [8, 128] → [8, 1, 128]: at (b, ·, f) the entry (b, f). -/
theorem keep_apply (u : S8x128.Idx → α) (h : S8x128.BroadcastsInDim S8x1x128 ![0, 2])
    (b : Fin 8) (z : Fin 1) (f : Fin 128) :
    broadcastInDim S8x1x128 ![0, 2] h u (ix3 b z f) = u (ix2 b f) :=
  broadcastInDim_apply _ h u _ (ix2 b f) (fun a => by
    match a with
    | ⟨0, _⟩ => rfl
    | ⟨1, _⟩ => rfl)

/-- A per-(row, channel) column [8, 1, 128] copied to every position: at (b, s, f) the entry (b, 0, f). -/
theorem spread_apply (w : S8x1x128.Idx → α) (h : S8x1x128.BroadcastsInDim S8x4096x128 ![0, 1, 2])
    (b : Fin 8) (s : Fin 4096) (f : Fin 128) :
    broadcastInDim S8x4096x128 ![0, 1, 2] h w (ix3 b s f) = w (ix3 b 0 f) :=
  broadcastInDim_apply _ h w _ (ix3 b 0 f) (fun a => by
    match a with
    | ⟨0, _⟩ => rfl
    | ⟨1, _⟩ => rfl
    | ⟨2, _⟩ => rfl)

/-- Every index of the one-position shape [8, 1, 128] has position 0. -/
theorem ix3_unit (b : Fin 8) (z : Fin 1) (f : Fin 128) :
    (ix3 b z f : S8x1x128.Idx) = ix3 b 0 f := by
  have hz : z = 0 := Fin.ext (by omega)
  rw [hz]

end Layout

/-- The sum over the positions from a zero initial value, at (b, f). -/
theorem sumPos_apply (v : FVec Ideal S8x4096x128 .f32) (h : S8x4096x128.ReducesTo [1] S8x128) (hu : 0 < S_.numel)
    (b : Fin 8) (f : Fin 128) :
    Host.reduceAdd (F := Ideal) v (constant (F := Ideal) S_ .f32 0x00000000#32) h hu (ix2 b f)
      = ∑ s : Fin 4096, v (ix3 b s f) := by
  have hR : S8x4096x128.Reduces [1] S8x128 := by decide
  rw [hostReduceAdd_apply, Ideal.hostReduceAdd_single h hR, constant_apply, Ideal.ofBits_zero_f32, zero_add]
  refine Finset.sum_congr rfl (fun k _ => congrArg v ?_)
  funext a
  match a with
  | ⟨0, _⟩ => rfl
  | ⟨1, _⟩ => rfl
  | ⟨2, _⟩ => rfl

/-- The mean's quotient at (b, ·, f): the sum over the positions over 4096. -/
theorem mean_apply (v : FVec Ideal S8x4096x128 .f32) (h : S8x4096x128.ReducesTo [1] S8x128) (hu : 0 < S_.numel)
    (hk : S8x128.BroadcastsInDim S8x1x128 ![0, 2]) (hc : S_.BroadcastsInDim S8x1x128 ![])
    (b : Fin 8) (z : Fin 1) (f : Fin 128) :
    Host.divf (F := Ideal)
        (broadcastInDim S8x1x128 ![0, 2] hk (Host.reduceAdd (F := Ideal) v (constant (F := Ideal) S_ .f32 0x00000000#32) h hu))
        (broadcastInDim S8x1x128 ![] hc (constant (F := Ideal) S_ .f32 0x45800000#32)) (ix3 b z f)
      = Cert.Spike.mean (fun b s f => v (ix3 b s f)) b f := by
  rw [hostDivf_apply, keep_apply, sumPos_apply, broadcastInDim_scalar_apply, constant_apply]
  rfl

/-- The centred square at (b, s, f), for a column `m` of per-(row, channel) values. -/
theorem centredSq_apply (v : FVec Ideal S8x4096x128 .f32) (m : FVec Ideal S8x1x128 .f32)
    (hs : S8x1x128.BroadcastsInDim S8x4096x128 ![0, 1, 2]) (b : Fin 8) (s : Fin 4096) (f : Fin 128) :
    mulf (subf v (broadcastInDim S8x4096x128 ![0, 1, 2] hs m)) (subf v (broadcastInDim S8x4096x128 ![0, 1, 2] hs m)) (ix3 b s f)
      = (v (ix3 b s f) - m (ix3 b 0 f)) * (v (ix3 b s f) - m (ix3 b 0 f)) := by
  rw [mulf_apply, subf_apply, spread_apply]

/-- The variance's divisor, 4096 minus the float of the integer zero, is 4096. -/
theorem divisor_apply :
    subf (constant (F := Ideal) S_ .f32 0x45800000#32) (sitofp (F := Ideal) .f32 (constantI S_ 32 0#32)) ix0
      = Cert.Spike.count := by
  rw [subf_apply, constant_apply, sitofp_apply]
  show Cert.Spike.count - ((((0#32 : BitVec 32).toInt : ℤ) : ℝ) : EReal) = Cert.Spike.count
  rw [sitofp_zero, sub_zero]

/-- The guard "the divisor is positive" holds. -/
theorem guard_apply :
    cmpf .ogt (subf (constant (F := Ideal) S_ .f32 0x45800000#32) (sitofp (F := Ideal) .f32 (constantI S_ 32 0#32)))
        (constant (F := Ideal) S_ .f32 0x00000000#32) ix0 = 1#1 := by
  rw [cmpf_apply, divisor_apply, constant_apply, Ideal.ofBits_zero_f32]
  show BitVec.ofBool (decide ((0 : EReal) < Cert.Spike.count)) = 1#1
  rw [decide_eq_true count_pos]
  rfl

/-- The reference's variance at (b, ·, f): the population variance of the positions' values. -/
theorem varFn_apply (v : FVec Ideal S8x4096x128 .f32) (b : Fin 8) (z : Fin 1) (f : Fin 128) :
    RefFn.varFn (F := Ideal) v (ix3 b z f) = Cert.Spike.var (fun b s f => v (ix3 b s f)) b f := by
  unfold RefFn.varFn
  rw [select_apply, broadcastInDim_scalar_apply, guard_apply, select_one, hostDivf_apply, keep_apply, sumPos_apply,
    broadcastInDim_scalar_apply, divisor_apply]
  unfold Cert.Spike.var
  congr 1
  refine Finset.sum_congr rfl (fun s _ => ?_)
  rw [centredSq_apply, mean_apply]

end Cert.ReferenceIdeal.RefValue

end
-- ==== Proof.RefValuePhase.lean ====
/-
  The reference's time phase read at an index: the time step modulo 3, computed on 32-bit words the way jnp's remainder is
  printed (truncated remainder, the divisor replaced by 1 if it were 0, then a correction by the divisor where the signs differ).
-/
import proofs.«156955_j19748259627071_2_alg».proof.Proof.RefFn
import proofs.«156955_j19748259627071_2_alg».proof.Proof.Spec
import proofs.«156955_j19748259627071_2_alg».proof.Proof.Gen.ReferenceIdeal
import Idealize.ShloMosaic.Lib.ValueLayout
import Idealize.ShloMosaic.Lib.IdealHost

noncomputable section

namespace Cert.ReferenceIdeal.RefValue

open Idealize.ShloMosaic Idealize.ShloMosaic.ValueIdx Cert.ReferenceIdeal Cert.Spike

/-- The time index modulo 3 as jnp computes it, at step `t`: the word of `t % 3`. The dividend 0…15 and the divisor 3
    are nonnegative, so the truncated remainder is the natural-number one and no correction is applied; sixteen closed
    cases, each evaluated. -/
theorem phaseFn_apply (t : Fin 16) : RefFn.phaseFn (ix1 t) = BitVec.ofNat 32 (t.val % 3) := by
  revert t
  decide +kernel

end Cert.ReferenceIdeal.RefValue

end
-- ==== Proof.RefValue.lean ====
/-
  The reference's value, index by index. At (b, t, s, f) the reference's result is: the 0/1 test "normalised difference ≥ θ"
  when t ≡ 0 (mod 3), the same test of the negated normalised difference when t ≡ 1, and zero when t ≡ 2 — where the
  normalised difference is the causal first difference over (standard deviation + ε), the standard deviation taken per row and
  channel over the positions. Each stage is read at an index over variables (the difference, the variance, the phase, the
  broadcasts that bring rows, time steps, positions and channels together, the two selections) and the stages are composed
  outermost first.
-/
import proofs.«156955_j19748259627071_2_alg».proof.Proof.RefFn
import proofs.«156955_j19748259627071_2_alg».proof.Proof.Spec
import proofs.«156955_j19748259627071_2_alg».proof.Proof.Gen.ReferenceIdeal
import proofs.«156955_j19748259627071_2_alg».proof.Proof.RefValueDiff
import proofs.«156955_j19748259627071_2_alg».proof.Proof.RefValueStats
import proofs.«156955_j19748259627071_2_alg».proof.Proof.RefValuePhase
import Idealize.ShloMosaic.Lib.ValueLayout
import Idealize.ShloMosaic.Lib.IdealHost

noncomputable section

namespace Cert.ReferenceIdeal.RefValue

open Idealize.ShloMosaic Idealize.ShloMosaic.ValueIdx Cert.ReferenceIdeal Cert.Spike

section Layout4
variable {α : Type}

/-- The time axis put in place, [16] → [1, 16, 1, 1]: at (·, t, ·, ·) the entry t. -/
theorem timeCol_apply (p : S16.Idx → α) (h : S16.BroadcastsInDim S1x16x1x1 ![1]) (t : Fin 16) :
    broadcastInDim S1x16x1x1 ![1] h p (ix4 0 t 0 0) = p (ix1 t) :=
  broadcastInDim_apply _ h p _ (ix1 t) (fun a => by
    match a with
    | ⟨0, _⟩ => rfl)

/-- A per-time-step value copied over rows, positions and channels: at (b, t, s, f) the entry (0, t, 0, 0). -/
theorem timeAll_apply (q : S1x16x1x1.Idx → α) (h : S1x16x1x1.BroadcastsInDim S8x16x4096x128 ![0, 1, 2, 3])
    (b : Fin 8) (t : Fin 16) (s : Fin 4096) (f : Fin 128) :
    broadcastInDim S8x16x4096x128 ![0, 1, 2, 3] h q (ix4 b t s f) = q (ix4 0 t 0 0) :=
  broadcastInDim_apply _ h q _ (ix4 0 t 0 0) (fun a => by
    match a with
    | ⟨0, _⟩ => rfl
    | ⟨1, _⟩ => rfl
    | ⟨2, _⟩ => rfl
    | ⟨3, _⟩ => rfl)

/-- A unit time axis inserted, [8, 4096, 128] → [8, 1, 4096, 128]: at (b, ·, s, f) the entry (b, s, f). -/
theorem addTime_apply (u : S8x4096x128.Idx → α) (h : S8x4096x128.BroadcastsInDim S8x1x4096x128 ![0, 2, 3])
    (b : Fin 8) (z : Fin 1) (s : Fin 4096) (f : Fin 128) :
    broadcastInDim S8x1x4096x128 ![0, 2, 3] h u (ix4 b z s f) = u (ix3 b s f) :=
  broadcastInDim_apply _ h u _ (ix3 b s f) (fun a => by
    match a with
    | ⟨0, _⟩ => rfl
    | ⟨1, _⟩ => rfl
    | ⟨2, _⟩ => rfl)

/-- The unit time axis copied over the 16 steps: at (b, t, s, f) the entry (b, 0, s, f). -/
theorem overTime_apply (u : S8x1x4096x128.Idx → α) (h : S8x1x4096x128.BroadcastsInDim S8x16x4096x128 ![0, 1, 2, 3])
    (b : Fin 8) (t : Fin 16) (s : Fin 4096) (f : Fin 128) :
    broadcastInDim S8x16x4096x128 ![0, 1, 2, 3] h u (ix4 b t s f) = u (ix4 b 0 s f) :=
  broadcastInDim_apply _ h u _ (ix4 b 0 s f) (fun a => by
    match a with
    | ⟨0, _⟩ => rfl
    | ⟨1, _⟩ => rfl
    | ⟨2, _⟩ => rfl
    | ⟨3, _⟩ => rfl)

end Layout4

/-- The test "the phase of step t is the word c", at (·, t, ·, ·). -/
theorem isPhase_apply (c : BitVec 32) (hb : S16.BroadcastsInDim S1x16x1x1 ![1]) (hs : S_.BroadcastsInDim S1x16x1x1 ![])
    (t : Fin 16) :
    cmpi .eq (broadcastInDim S1x16x1x1 ![1] hb RefFn.phaseFn) (broadcastInDim S1x16x1x1 ![] hs (constantI S_ 32 c))
        (ix4 0 t 0 0) = BitVec.ofBool (BitVec.ofNat 32 (t.val % 3) == c) := by
  show IntOp.cmpi .eq (broadcastInDim S1x16x1x1 ![1] hb RefFn.phaseFn (ix4 0 t 0 0))
      (broadcastInDim S1x16x1x1 ![] hs (constantI S_ 32 c) (ix4 0 t 0 0)) = _
  rw [timeCol_apply, phaseFn_apply, broadcastInDim_scalar_apply]
  rfl

/-- The difference over (standard deviation + ε) at (b, s, f), for a difference `d` and a variance column `w`. -/
theorem ndFn_apply (d : FVec Ideal S8x4096x128 .f32) (w : FVec Ideal S8x1x128 .f32)
    (hc : S_.BroadcastsInDim S8x1x128 ![]) (hs : S8x1x128.BroadcastsInDim S8x4096x128 ![0, 1, 2])
    (b : Fin 8) (s : Fin 4096) (f : Fin 128) :
    Host.divf (F := Ideal) d (broadcastInDim S8x4096x128 ![0, 1, 2] hs
        (addf (Host.sqrt (F := Ideal) w) (broadcastInDim S8x1x128 ![] hc (constant (F := Ideal) S_ .f32 0x322BCC77#32))))
        (ix3 b s f)
      = Ideal.div (d (ix3 b s f)) (Ideal.sqrt (w (ix3 b 0 f)) + Cert.Spike.eps) := by
  rw [hostDivf_apply, spread_apply, addf_apply, broadcastInDim_scalar_apply, constant_apply]
  rfl

/-- The threshold test "n ≥ θ" as a 0/1 float, at (b, s, f). -/
theorem testFn_apply (n : FVec Ideal S8x4096x128 .f32) (hc : S_.BroadcastsInDim S8x4096x128 ![])
    (b : Fin 8) (s : Fin 4096) (f : Fin 128) :
    uitofp (F := Ideal) .f32 (cmpf .oge n (broadcastInDim S8x4096x128 ![] hc (constant (F := Ideal) S_ .f32 0x3DCCCCCD#32)))
        (ix3 b s f)
      = (((Ideal.cmp .oge (n (ix3 b s f)) Cert.Spike.thr).toNat : ℝ) : EReal) := by
  show FloatOps.uitofp (F := Ideal) .f32 (cmpf .oge n (broadcastInDim S8x4096x128 ![] hc (constant (F := Ideal) S_ .f32 0x3DCCCCCD#32)) (ix3 b s f)) = _
  rw [cmpf_apply, broadcastInDim_scalar_apply, constant_apply]
  rfl

/-- The host's negation at an index. -/
theorem hostNegf_apply (n : FVec Ideal S8x4096x128 .f32) (i : S8x4096x128.Idx) : Host.negf (F := Ideal) n i = -(n i) := rfl

/-- The two nested selections on the phase tests: the first value at phase 0, the second at phase 1, zero at phase 2. -/
theorem pattern_select (t : Fin 16) (P N : EReal) :
    Scalar.select (BitVec.ofBool (BitVec.ofNat 32 (t.val % 3) == 0#32)) P
        (Scalar.select (BitVec.ofBool (BitVec.ofNat 32 (t.val % 3) == 1#32)) N 0)
      = if t.val % 3 = 0 then P else if t.val % 3 = 1 then N else 0 := by
  have h : t.val % 3 = 0 ∨ t.val % 3 = 1 ∨ t.val % 3 = 2 := by omega
  rcases h with h | h | h <;> rw [h] <;> rfl

/-- The reference's result at (b, t, s, f). -/
theorem refFn_apply (x : FVec Ideal S8x4096x128 .f32) (b : Fin 8) (t : Fin 16) (s : Fin 4096) (f : Fin 128) :
    RefFn.refFn (F := Ideal) x (ix4 b t s f) = Cert.Spike.pattern (Cert.Spike.diffR x) (ix4 b t s f) := by
  have hd : (fun b s f => RefFn.diffFn (F := Ideal) x (ix3 b s f)) = Cert.Spike.diffR x := by
    funext b s f
    exact diffFn_apply x b s f
  unfold RefFn.refFn
  rw [select_apply, select_apply, timeAll_apply, timeAll_apply, isPhase_apply, isPhase_apply,
    overTime_apply, overTime_apply, addTime_apply, addTime_apply, testFn_apply, testFn_apply,
    hostNegf_apply, ndFn_apply, varFn_apply, hd, broadcastInDim_scalar_apply, id_eq, constant_apply, Ideal.ofBits_zero_f32,
    pattern_select]
  rw [diffFn_apply]
  rfl

/-- The reference's result is the spike pattern of the reference's own difference. -/
theorem refFn_eq (x : FVec Ideal Cert.ReferenceIdeal.S8x4096x128 .f32) :
    Cert.ReferenceIdeal.RefFn.refFn (F := Ideal) x = Cert.Spike.pattern (Cert.Spike.diffR x) := by
  funext j
  rw [eq_ix4 j]
  exact refFn_apply x (j 0) (j 1) (j 2) (j 3)

end Cert.ReferenceIdeal.RefValue

end
-- ==== Proof.lean ====
/-
  The spike encoder against its jnp reference, over the extended reals.

  Both programs map x : f32[8, 4096, 128] to spikes : f32[8, 16, 4096, 128]. Per row b and channel f they take the causal
  first difference d[s] = x[s] - x[s-1] along the 4096 positions (d[0] = 0), its population mean and variance over the
  positions, the normalised difference d / (√var + ε), the two tests "≥ θ" of it and of its negative as 0/1 numbers, and
  lay them out over 16 time steps with period 3: step t carries the positive test if t ≡ 0, the negative test if t ≡ 1 and
  zero if t ≡ 2 (mod 3)  (Proof/Spec.lean: `pattern`).

  The kernel runs on a grid of 8 rows × 2 halves of the time axis. At the first half of a row it computes the two tests
  into two scratch arrays and fills time steps 0…7 from them; at the second half it fills steps 8…15 from the scratch
  arrays as the first half left them. Its difference is a rotation by one position, subtracted, with row 0 masked to
  zero; its sums are sums down the rows of the block. So its result array is `pattern (diffK x)` (Proof/KernelPieces.lean:
  what each case leaves; Proof/KernelPayload.lean: the arithmetic at an index; Proof/KernelValue.lean: the sixteen blocks
  tile the result).

  The reference builds the difference by putting row 0 in front and subtracting neighbours, so its position 0 is
  x[0] - x[0]; it divides the squares' sum by 4096 - float(0) under a guard that 4096 - float(0) > 0; it negates by
  `negate` where the kernel subtracts from zero; its time pattern is jnp's remainder of 0…15 by 3 under two selects.
  Its run is written out operation by operation (Proof/RefRunA.lean, Proof/RefRun.lean) and ends at one composed pure
  function of the argument (Proof/RefFn.lean), which index by index is `pattern (diffR x)` (Proof/RefValue*.lean).

  The two results differ only in position 0 of the difference: 0 against x[0] - x[0]. These agree exactly when x[0] is
  finite — the one place the precondition is used (Proof/Finite.lean, Spec's `diffR_eq_diffK`). Sums, quotients, square
  roots and comparisons are then the same extended reals on both sides, with no further appeal to finiteness.

  The three frames are the frame runs with the results dropped; the ideal pass rewrote nothing, so `preserves` is trivial.
-/
import proofs.«156955_j19748259627071_2_alg».proof.Defs
import proofs.«156955_j19748259627071_2_alg».proof.Proof.Gen.Kernel
import proofs.«156955_j19748259627071_2_alg».proof.Proof.GenP.Kernel.Frame
import proofs.«156955_j19748259627071_2_alg».proof.Proof.Gen.KernelIdeal
import proofs.«156955_j19748259627071_2_alg».proof.Proof.GenP.KernelIdeal.Frame
import proofs.«156955_j19748259627071_2_alg».proof.Proof.GenP.KernelIdeal.Value
import proofs.«156955_j19748259627071_2_alg».proof.Proof.Gen.ReferenceIdeal
import proofs.«156955_j19748259627071_2_alg».proof.Proof.Gen.Pre_finite_inputs
import proofs.«156955_j19748259627071_2_alg».proof.Proof.Spec
import proofs.«156955_j19748259627071_2_alg».proof.Proof.Finite
import proofs.«156955_j19748259627071_2_alg».proof.Proof.KernelValue
import proofs.«156955_j19748259627071_2_alg».proof.Proof.RefRun
import proofs.«156955_j19748259627071_2_alg».proof.Proof.RefValue
import Idealize.ShloMosaic.Adequacy
import Idealize.ShloMosaic.Init

noncomputable section

namespace Cert.Proof

open Idealize.ShloMosaic Idealize.SL.Sem

/-- The word-level kernel runs and leaves its argument as it was. -/
theorem frame_k : Cert.frame_Kernel := fun m ρ _ => Cert.Kernel.GenP.frame m ρ

/-- So does the idealized kernel. -/
theorem frame_ki : Cert.frame_KernelIdeal := fun m ρ _ => Cert.KernelIdeal.GenP.frame m ρ

/-- So does the reference: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- From memories agreeing on a finite argument x, the kernel ends at `pattern (diffK x)` and the reference at
    `pattern (diffR x)`; on a finite x the two differences are one array. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refFn_eq, hagree c]
  exact congrArg Cert.Spike.pattern
    (Cert.Spike.diffR_eq_diffK _ (Cert.Pre_finite_inputs.Finite.real_of_pre _ (hpre c)))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
